-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v170)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S2048x1024 : Shape := ⟨2, ![2048, 1024]⟩
abbrev S2000x1024 : Shape := ⟨2, ![2000, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2000x1024 : S_.BroadcastsInDim S2000x1024 (![] : Fin 0 → Fin S2000x1024.rank)
  reducesTo_S2000x1024_S_d0_1 : S2000x1024.ReducesTo [0, 1] S_

variable [Facts]

def fn_part1 {F : FTy → Type} [FloatOps F] (main_v13 : IVec S_ 1) (main_v16 : IVec S2000x1024 1) : IVec S_ 1 :=
  let main_c_5 : IVec S_ 1 := constantI S_ 1 1#1
  let main_v17 : IVec S_ 1 := (fun x v => Host.reduce IntOp.andi x v reducesTo_S2000x1024_S_d0_1 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : IVec S4096 32) (main_arg3 : IVec S4096 32) (main_arg4 : FVec F S2048x1024 .f32) (main_arg5 : FVec F S2000x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x1024 .f32 := Host.absf main_arg4
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2000x1024 .f32 := Host.absf main_arg5
  let main_cst_4 : FVec F S_ .f32 := constant S_ .f32 0x7F800000#32
  let main_v15 : FVec F S2000x1024 .f32 := broadcastInDim S2000x1024 ![] bcast_S_S2000x1024 main_cst_4
  let main_v16 : IVec S2000x1024 1 := cmpf .olt main_v14 main_v15
  fn_part1 (F := F) main_v13 main_v16
-- ==== Kernel.lean ====
abbrev S4096x2048 : Shape := ⟨2, ![4096, 2048]⟩
abbrev S4096 : Shape := ⟨1, ![4096]⟩
abbrev S2048x1024 : Shape := ⟨2, ![2048, 1024]⟩
abbrev S2000x1024 : Shape := ⟨2, ![2000, 1024]⟩
abbrev S_ : Shape := ⟨0, ![]⟩
abbrev S4096x1 : Shape := ⟨2, ![4096, 1]⟩
abbrev S16384x2048 : Shape := ⟨2, ![16384, 2048]⟩
abbrev S2000 : Shape := ⟨1, ![2000]⟩
abbrev S2000x1 : Shape := ⟨2, ![2000, 1]⟩
abbrev S1000x1024 : Shape := ⟨2, ![1000, 1024]⟩
abbrev S1024x1000 : Shape := ⟨2, ![1024, 1000]⟩
abbrev S16384x1000 : Shape := ⟨2, ![16384, 1000]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩
abbrev S4096x1000 : Shape := ⟨2, ![4096, 1000]⟩
abbrev S1000 : Shape := ⟨1, ![1000]⟩
abbrev S1x1000 : Shape := ⟨2, ![1, 1000]⟩

abbrev nBuf : Space → Nat
  | .hbm => 299
  | .vmem => 6
  | .smem => 0
  | _ => 0

abbrev hbmTy0_0 (i : Nat) : BufTy := match i % 128 with
  | 0 => ⟨S4096x2048, .f32⟩
  | 1 => ⟨S4096x2048, .f32⟩
  | 2 => ⟨S4096, .i32⟩
  | 3 => ⟨S4096, .i32⟩
  | 4 => ⟨S2048x1024, .f32⟩
  | 5 => ⟨S2000x1024, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x2048, .f32⟩
  | 28 => ⟨S4096x2048, .f32⟩
  | 29 => ⟨S_, .f32⟩
  | 30 => ⟨S4096x2048, .f32⟩
  | 31 => ⟨S4096x2048, .f32⟩
  | 32 => ⟨S4096x2048, .bf16⟩
  | 33 => ⟨S4096x2048, .bf16⟩
  | 34 => ⟨S4096x2048, .bf16⟩
  | 35 => ⟨S4096x2048, .bf16⟩
  | 36 => ⟨S16384x2048, .bf16⟩
  | 37 => ⟨S2048x1024, .bf16⟩
  | 38 => ⟨S2000x1024, .f32⟩
  | 39 => ⟨S_, .f32⟩
  | 40 => ⟨S2000, .f32⟩
  | 41 => ⟨S2000x1, .f32⟩
  | 42 => ⟨S2000x1, .f32⟩
  | 43 => ⟨S_, .f32⟩
  | 44 => ⟨S2000x1, .f32⟩
  | 45 => ⟨S2000x1, .f32⟩
  | 46 => ⟨S2000x1024, .f32⟩
  | 47 => ⟨S2000x1024, .f32⟩
  | 48 => ⟨S1000x1024, .f32⟩
  | 49 => ⟨S1024x1000, .f32⟩
  | 50 => ⟨S1024x1000, .bf16⟩
  | 51 => ⟨S16384x1000, .f32⟩
  | 52 => ⟨S4096x1000, .f32⟩
  | 53 => ⟨S4096x1000, .f32⟩
  | 54 => ⟨S4096x1000, .f32⟩
  | 55 => ⟨S4096x1000, .f32⟩
  | 56 => ⟨S_, .f32⟩
  | 57 => ⟨S4096x1000, .f32⟩
  | 58 => ⟨S4096x1000, .f32⟩
  | 59 => ⟨S_, .f32⟩
  | 60 => ⟨S4096, .f32⟩
  | 61 => ⟨S_, .f32⟩
  | 62 => ⟨S4096, .f32⟩
  | 63 => ⟨S4096, .f32⟩
  | 64 => ⟨S4096x1, .f32⟩
  | 65 => ⟨S4096x1000, .f32⟩
  | 66 => ⟨S4096x1000, .f32⟩
  | 67 => ⟨S4096x1000, .f32⟩
  | 68 => ⟨S_, .f32⟩
  | 69 => ⟨S4096, .f32⟩
  | 70 => ⟨S4096x1, .f32⟩
  | 71 => ⟨S4096x1, .f32⟩
  | 72 => ⟨S4096x1000, .f32⟩
  | 73 => ⟨S4096x1000, .f32⟩
  | 74 => ⟨S_, .f32⟩
  | 75 => ⟨S4096x1000, .f32⟩
  | 76 => ⟨S4096x1000, .f32⟩
  | 77 => ⟨S_, .f32⟩
  | 78 => ⟨S4096, .f32⟩
  | 79 => ⟨S_, .f32⟩
  | 80 => ⟨S4096, .f32⟩
  | 81 => ⟨S4096, .f32⟩
  | 82 => ⟨S4096x1, .f32⟩
  | 83 => ⟨S4096x1000, .f32⟩
  | 84 => ⟨S4096x1000, .f32⟩
  | 85 => ⟨S4096x1000, .f32⟩
  | 86 => ⟨S_, .f32⟩
  | 87 => ⟨S4096, .f32⟩
  | 88 => ⟨S4096x1, .f32⟩
  | 89 => ⟨S4096x1, .f32⟩
  | 90 => ⟨S4096x1000, .f32⟩
  | 91 => ⟨S4096x1000, .f32⟩
  | 92 => ⟨S_, .f32⟩
  | 93 => ⟨S4096x1000, .f32⟩
  | 94 => ⟨S4096x1000, .f32⟩
  | 95 => ⟨S_, .f32⟩
  | 96 => ⟨S4096, .f32⟩
  | 97 => ⟨S_, .f32⟩
  | 98 => ⟨S4096, .f32⟩
  | 99 => ⟨S4096, .f32⟩
  | 100 => ⟨S4096x1, .f32⟩
  | 101 => ⟨S4096x1000, .f32⟩
  | 102 => ⟨S4096x1000, .f32⟩
  | 103 => ⟨S4096x1000, .f32⟩
  | 104 => ⟨S_, .f32⟩
  | 105 => ⟨S4096, .f32⟩
  | 106 => ⟨S4096x1, .f32⟩
  | 107 => ⟨S4096x1, .f32⟩
  | 108 => ⟨S4096x1000, .f32⟩
  | 109 => ⟨S4096x1000, .f32⟩
  | 110 => ⟨S_, .f32⟩
  | 111 => ⟨S4096x1000, .f32⟩
  | 112 => ⟨S4096x1000, .f32⟩
  | 113 => ⟨S_, .f32⟩
  | 114 => ⟨S4096, .f32⟩
  | 115 => ⟨S_, .f32⟩
  | 116 => ⟨S4096, .f32⟩
  | 117 => ⟨S4096, .f32⟩
  | 118 => ⟨S4096x1, .f32⟩
  | 119 => ⟨S4096x1000, .f32⟩
  | 120 => ⟨S4096x1000, .f32⟩
  | 121 => ⟨S4096x1000, .f32⟩
  | 122 => ⟨S_, .f32⟩
  | 123 => ⟨S4096, .f32⟩
  | 124 => ⟨S4096x1, .f32⟩
  | 125 => ⟨S4096x1, .f32⟩
  | 126 => ⟨S4096x1000, .f32⟩
  | 127 => ⟨S4096x1000, .f32⟩
  | _ => ⟨S4096x2048, .f32⟩

abbrev hbmTy0_1 (i : Nat) : BufTy := match i % 128 with
  | 0 => ⟨S_, .f32⟩
  | 1 => ⟨S4096x1000, .f32⟩
  | 2 => ⟨S4096x1000, .f32⟩
  | 3 => ⟨S4096x1000, .f32⟩
  | 4 => ⟨S_, .f32⟩
  | 5 => ⟨S4096, .f32⟩
  | 6 => ⟨S4096x1, .f32⟩
  | 7 => ⟨S4096x1000, .f32⟩
  | 8 => ⟨S4096x1000, .f32⟩
  | 9 => ⟨S_, .f32⟩
  | 10 => ⟨S1000, .f32⟩
  | 11 => ⟨S1x1000, .f32⟩
  | 12 => ⟨S4096x1000, .f32⟩
  | 13 => ⟨S4096x1000, .f32⟩
  | 14 => ⟨S_, .f32⟩
  | 15 => ⟨S4096, .f32⟩
  | 16 => ⟨S4096x1, .f32⟩
  | 17 => ⟨S4096x1000, .f32⟩
  | 18 => ⟨S4096x1000, .f32⟩
  | 19 => ⟨S_, .f32⟩
  | 20 => ⟨S1000, .f32⟩
  | 21 => ⟨S1x1000, .f32⟩
  | 22 => ⟨S4096x1000, .f32⟩
  | 23 => ⟨S4096x1000, .f32⟩
  | 24 => ⟨S_, .f32⟩
  | 25 => ⟨S4096, .f32⟩
  | 26 => ⟨S4096x1, .f32⟩
  | 27 => ⟨S4096x1000, .f32⟩
  | 28 => ⟨S4096x1000, .f32⟩
  | 29 => ⟨S_, .f32⟩
  | 30 => ⟨S1000, .f32⟩
  | 31 => ⟨S1x1000, .f32⟩
  | 32 => ⟨S4096x1000, .f32⟩
  | 33 => ⟨S4096x1000, .f32⟩
  | 34 => ⟨S_, .f32⟩
  | 35 => ⟨S4096, .f32⟩
  | 36 => ⟨S4096x1, .f32⟩
  | 37 => ⟨S4096x1000, .f32⟩
  | 38 => ⟨S4096x1000, .f32⟩
  | 39 => ⟨S_, .i32⟩
  | 40 => ⟨S4096, .i32⟩
  | 41 => ⟨S4096, .i32⟩
  | 42 => ⟨S4096x1, .i32⟩
  | 43 => ⟨S1x1000, .i32⟩
  | 44 => ⟨S4096x1000, .i32⟩
  | 45 => ⟨S4096x1000, .i32⟩
  | 46 => ⟨S4096x1000, .i1⟩
  | 47 => ⟨S4096x1000, .f32⟩
  | 48 => ⟨S_, .i32⟩
  | 49 => ⟨S4096, .i32⟩
  | 50 => ⟨S4096, .i1⟩
  | 51 => ⟨S4096x1, .i1⟩
  | 52 => ⟨S4096x1000, .i1⟩
  | 53 => ⟨S4096x1000, .f32⟩
  | 54 => ⟨S_, .f32⟩
  | 55 => ⟨S4096x1000, .f32⟩
  | 56 => ⟨S4096x1000, .f32⟩
  | 57 => ⟨S4096x1000, .f32⟩
  | 58 => ⟨S_, .f32⟩
  | 59 => ⟨S4096, .f32⟩
  | 60 => ⟨S4096x1, .f32⟩
  | 61 => ⟨S4096x1000, .f32⟩
  | 62 => ⟨S4096x1000, .f32⟩
  | 63 => ⟨S_, .f32⟩
  | 64 => ⟨S1000, .f32⟩
  | 65 => ⟨S1x1000, .f32⟩
  | 66 => ⟨S4096x1000, .f32⟩
  | 67 => ⟨S4096x1000, .f32⟩
  | 68 => ⟨S_, .f32⟩
  | 69 => ⟨S4096, .f32⟩
  | 70 => ⟨S4096x1, .f32⟩
  | 71 => ⟨S4096x1000, .f32⟩
  | 72 => ⟨S4096x1000, .f32⟩
  | 73 => ⟨S_, .f32⟩
  | 74 => ⟨S1000, .f32⟩
  | 75 => ⟨S1x1000, .f32⟩
  | 76 => ⟨S4096x1000, .f32⟩
  | 77 => ⟨S4096x1000, .f32⟩
  | 78 => ⟨S_, .f32⟩
  | 79 => ⟨S4096, .f32⟩
  | 80 => ⟨S4096x1, .f32⟩
  | 81 => ⟨S4096x1000, .f32⟩
  | 82 => ⟨S4096x1000, .f32⟩
  | 83 => ⟨S_, .f32⟩
  | 84 => ⟨S1000, .f32⟩
  | 85 => ⟨S1x1000, .f32⟩
  | 86 => ⟨S4096x1000, .f32⟩
  | 87 => ⟨S4096x1000, .f32⟩
  | 88 => ⟨S_, .f32⟩
  | 89 => ⟨S4096, .f32⟩
  | 90 => ⟨S4096x1, .f32⟩
  | 91 => ⟨S4096x1000, .f32⟩
  | 92 => ⟨S4096x1000, .f32⟩
  | 93 => ⟨S_, .i32⟩
  | 94 => ⟨S4096, .i32⟩
  | 95 => ⟨S4096, .i32⟩
  | 96 => ⟨S4096x1, .i32⟩
  | 97 => ⟨S1x1000, .i32⟩
  | 98 => ⟨S4096x1000, .i32⟩
  | 99 => ⟨S4096x1000, .i32⟩
  | 100 => ⟨S4096x1000, .i1⟩
  | 101 => ⟨S4096x1000, .f32⟩
  | 102 => ⟨S_, .i32⟩
  | 103 => ⟨S4096, .i32⟩
  | 104 => ⟨S4096, .i1⟩
  | 105 => ⟨S4096x1, .i1⟩
  | 106 => ⟨S4096x1000, .i1⟩
  | 107 => ⟨S4096x1000, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x1000, .f32⟩
  | 117 => ⟨S4096x1000, .f32⟩
  | 118 => ⟨S_, .f32⟩
  | 119 => ⟨S4096x1000, .f32⟩
  | 120 => ⟨S4096x1000, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096x2048, .f32⟩

abbrev hbmTy0_2 (i : Nat) : BufTy := match i % 128 with
  | 0 => ⟨S4096x1, .i32⟩
  | 1 => ⟨S4096x1000, .f32⟩
  | 2 => ⟨S4096x1000, .f32⟩
  | 3 => ⟨S_, .f32⟩
  | 4 => ⟨S4096x1000, .f32⟩
  | 5 => ⟨S4096x1000, .f32⟩
  | 6 => ⟨S4096x1000, .f32⟩
  | 7 => ⟨S_, .f32⟩
  | 8 => ⟨S4096, .f32⟩
  | 9 => ⟨S4096, .f32⟩
  | 10 => ⟨S_, .f32⟩
  | 11 => ⟨S_, .f32⟩
  | 12 => ⟨S_, .f32⟩
  | 13 => ⟨S_, .f32⟩
  | 14 => ⟨S4096x1000, .f32⟩
  | 15 => ⟨S_, .f32⟩
  | 16 => ⟨S4096, .f32⟩
  | 17 => ⟨S4096, .f32⟩
  | 18 => ⟨S_, .f32⟩
  | 19 => ⟨S_, .f32⟩
  | 20 => ⟨S_, .f32⟩
  | 21 => ⟨S_, .f32⟩
  | 22 => ⟨S_, .f32⟩
  | 23 => ⟨S4096x1000, .f32⟩
  | 24 => ⟨S_, .f32⟩
  | 25 => ⟨S4096, .f32⟩
  | 26 => ⟨S4096, .f32⟩
  | 27 => ⟨S_, .f32⟩
  | 28 => ⟨S_, .f32⟩
  | 29 => ⟨S_, .f32⟩
  | 30 => ⟨S_, .f32⟩
  | 31 => ⟨S4096x1000, .f32⟩
  | 32 => ⟨S_, .f32⟩
  | 33 => ⟨S4096, .f32⟩
  | 34 => ⟨S4096, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1000, .bf16⟩
  | .local _ .vmem, ⟨4, _⟩ => ⟨S1024x1000, .f32⟩
  | .local _ .vmem, ⟨5, _⟩ => ⟨S1024x1000, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_call1_cst_0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_cst_1 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_v43 : Ref sig .tc := ⟨.hbm, 76, rfl⟩
abbrev main_call2_cst : Ref sig .tc := ⟨.hbm, 77, rfl⟩
abbrev main_call2_v0 : Ref sig .tc := ⟨.hbm, 78, rfl⟩
abbrev main_call2_cst_0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_cst_1 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_v44 : Ref sig .tc := ⟨.hbm, 91, rfl⟩
abbrev main_cst_7 : Ref sig .tc := ⟨.hbm, 92, rfl⟩
abbrev main_v45 : Ref sig .tc := ⟨.hbm, 93, rfl⟩
abbrev main_v46 : Ref sig .tc := ⟨.hbm, 94, rfl⟩
abbrev main_call3_cst : Ref sig .tc := ⟨.hbm, 95, rfl⟩
abbrev main_call3_v0 : Ref sig .tc := ⟨.hbm, 96, rfl⟩
abbrev main_call3_cst_0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_cst_1 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_v47 : Ref sig .tc := ⟨.hbm, 109, rfl⟩
abbrev main_cst_8 : Ref sig .tc := ⟨.hbm, 110, rfl⟩
abbrev main_v48 : Ref sig .tc := ⟨.hbm, 111, rfl⟩
abbrev main_v49 : Ref sig .tc := ⟨.hbm, 112, rfl⟩
abbrev main_call4_cst : Ref sig .tc := ⟨.hbm, 113, rfl⟩
abbrev main_call4_v0 : Ref sig .tc := ⟨.hbm, 114, rfl⟩
abbrev main_call4_cst_0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_cst_1 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_v50 : Ref sig .tc := ⟨.hbm, 127, rfl⟩
abbrev main_cst_9 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_cst_10 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_cst_11 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_cst_12 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_cst_13 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_14 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_cst_15 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_cst_16 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_c_17 : Ref sig .tc := ⟨.hbm, 167, rfl⟩
abbrev main_v82 : Ref sig .tc := ⟨.hbm, 168, rfl⟩
abbrev main_v83 : Ref sig .tc := ⟨.hbm, 169, rfl⟩
abbrev main_call5_v0 : Ref sig .tc := ⟨.hbm, 170, rfl⟩
abbrev main_call5_v1 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_v84 : Ref sig .tc := ⟨.hbm, 175, rfl⟩
abbrev main_c_18 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_call6_v0 : Ref sig .tc := ⟨.hbm, 180, rfl⟩
abbrev main_v88 : Ref sig .tc := ⟨.hbm, 181, rfl⟩
abbrev main_cst_19 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_cst_20 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_cst_21 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_cst_22 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_cst_23 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_cst_24 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_cst_25 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_cst_26 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_c_27 : Ref sig .tc := ⟨.hbm, 221, rfl⟩
abbrev main_v120 : Ref sig .tc := ⟨.hbm, 222, rfl⟩
abbrev main_v121 : Ref sig .tc := ⟨.hbm, 223, rfl⟩
abbrev main_call7_v0 : Ref sig .tc := ⟨.hbm, 224, rfl⟩
abbrev main_call7_v1 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_v122 : Ref sig .tc := ⟨.hbm, 229, rfl⟩
abbrev main_c_28 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_call8_v0 : Ref sig .tc := ⟨.hbm, 234, rfl⟩
abbrev main_v126 : Ref sig .tc := ⟨.hbm, 235, rfl⟩
abbrev main_c_29 : Ref sig .tc := ⟨.hbm, 236, rfl⟩
abbrev main_v127 : Ref sig .tc := ⟨.hbm, 237, rfl⟩
abbrev main_v128 : Ref sig .tc := ⟨.hbm, 238, rfl⟩
abbrev main_c_30 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_cst_31 : Ref sig .tc := ⟨.hbm, 246, rfl⟩
abbrev main_v135 : Ref sig .tc := ⟨.hbm, 247, rfl⟩
abbrev main_v136 : Ref sig .tc := ⟨.hbm, 248, rfl⟩
abbrev main_c_32 : Ref sig .tc := ⟨.hbm, 249, rfl⟩
abbrev main_v137 : Ref sig .tc := ⟨.hbm, 250, rfl⟩
abbrev main_v138 : Ref sig .tc := ⟨.hbm, 251, rfl⟩
abbrev main_c_33 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_cst_34 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_cst_35 : Ref sig .tc := ⟨.hbm, 263, rfl⟩
abbrev main_v148 : Ref sig .tc := ⟨.hbm, 264, rfl⟩
abbrev main_v149 : Ref sig .tc := ⟨.hbm, 265, rfl⟩
abbrev main_cst_36 : Ref sig .tc := ⟨.hbm, 266, rfl⟩
abbrev main_v150 : Ref sig .tc := ⟨.hbm, 267, rfl⟩
abbrev main_cst_37 : Ref sig .tc := ⟨.hbm, 268, rfl⟩
abbrev main_v151 : Ref sig .tc := ⟨.hbm, 269, rfl⟩
abbrev main_v152 : Ref sig .tc := ⟨.hbm, 270, rfl⟩
abbrev main_cst_38 : Ref sig .tc := ⟨.hbm, 271, rfl⟩
abbrev main_v153 : Ref sig .tc := ⟨.hbm, 272, rfl⟩
abbrev main_v154 : Ref sig .tc := ⟨.hbm, 273, rfl⟩
abbrev main_cst_39 : Ref sig .tc := ⟨.hbm, 274, rfl⟩
abbrev main_v155 : Ref sig .tc := ⟨.hbm, 275, rfl⟩
abbrev main_cst_40 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_cst_41 : Ref sig .tc := ⟨.hbm, 280, rfl⟩
abbrev main_v159 : Ref sig .tc := ⟨.hbm, 281, rfl⟩
abbrev main_v160 : Ref sig .tc := ⟨.hbm, 282, rfl⟩
abbrev main_cst_42 : Ref sig .tc := ⟨.hbm, 283, rfl⟩
abbrev main_v161 : Ref sig .tc := ⟨.hbm, 284, rfl⟩
abbrev main_cst_43 : Ref sig .tc := ⟨.hbm, 285, rfl⟩
abbrev main_v162 : Ref sig .tc := ⟨.hbm, 286, rfl⟩
abbrev main_v163 : Ref sig .tc := ⟨.hbm, 287, rfl⟩
abbrev main_cst_44 : Ref sig .tc := ⟨.hbm, 288, rfl⟩
abbrev main_v164 : Ref sig .tc := ⟨.hbm, 289, rfl⟩
abbrev main_v165 : Ref sig .tc := ⟨.hbm, 290, rfl⟩
abbrev main_cst_45 : Ref sig .tc := ⟨.hbm, 291, rfl⟩
abbrev main_v166 : Ref sig .tc := ⟨.hbm, 292, rfl⟩
abbrev main_cst_46 : Ref sig .tc := ⟨.hbm, 293, rfl⟩
abbrev main_v167 : Ref sig .tc := ⟨.hbm, 294, rfl⟩
abbrev main_v168 : Ref sig .tc := ⟨.hbm, 295, rfl⟩
abbrev main_v169 : Ref sig .tc := ⟨.hbm, 296, rfl⟩
abbrev main_cst_47 : Ref sig .tc := ⟨.hbm, 297, rfl⟩
abbrev main_v170 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x2048 : S_.BroadcastsInDim S4096x2048 (![] : Fin 0 → Fin S4096x2048.rank)
  bitsLt_bf16_f32 : FTy.bits .bf16 < FTy.bits .f32
  concatenates_S4096x2048_S4096x2048_S4096x2048_S4096x2048_S16384x2048_d0 : Shape.Concatenates [S4096x2048, S4096x2048, S4096x2048, S4096x2048] S16384x2048 0
  reducesTo_S2000x1024_S2000_d1 : S2000x1024.ReducesTo [1] S2000
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x1024_0_1 : S2000x1.BroadcastsInDim S2000x1024 (![0, 1] : Fin 2 → Fin S2000x1024.rank)
  slices_S2000x1024_S1000x1024_0_0 : S2000x1024.Slices ![0, 0] S1000x1024
  transposes_S1000x1024_S1024x1000_1_0 : S1000x1024.Transposes [1, 0] S1024x1000
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S1024x1024_S1024 : S1024x1024.Reduces [1] S1024
  shapeCasts_S1024_S1024x1 : S1024.ShapeCasts S1024x1
  broadcasts_S1024x1_S1024x1024 : S1024x1.Broadcasts S1024x1024
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  slices_S16384x1000_S4096x1000_0_0 : S16384x1000.Slices ![0, 0] S4096x1000
  slices_S16384x1000_S4096x1000_4096_0 : S16384x1000.Slices ![4096, 0] S4096x1000
  slices_S16384x1000_S4096x1000_8192_0 : S16384x1000.Slices ![8192, 0] S4096x1000
  slices_S16384x1000_S4096x1000_12288_0 : S16384x1000.Slices ![12288, 0] S4096x1000
  bcast_S_S4096x1000 : S_.BroadcastsInDim S4096x1000 (![] : Fin 0 → Fin S4096x1000.rank)
  reducesTo_S4096x1000_S4096_d1 : S4096x1000.ReducesTo [1] S4096
  bcast_S4096x1_S4096x1000_0_1 : S4096x1.BroadcastsInDim S4096x1000 (![0, 1] : Fin 2 → Fin S4096x1000.rank)
  reducesTo_S4096x1000_S1000_d0 : S4096x1000.ReducesTo [0] S1000
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  reducesTo_S4096_S_d0 : S4096.ReducesTo [0] S_
  gather_S4096x2048_S4096x1_S4096x2048_1_0_n_n_0_1_12048_wf : GatherDims.WF S4096x2048 S4096x1 S4096x2048 [1] [0] [] [0] [] 1 ![1, 2048]
  dot_S1024x2048_S2048x1024_S1024x1024_1_0_0_1_n_n_wf : DotDims.WF S1024x2048 S2048x1024 S1024x1024 [1] [0] [0] [1] [] []
  dot_S1024x1024_S1024x1000_S1024x1000_1_0_0_1_n_n_wf : DotDims.WF S1024x1024 S1024x1000 S1024x1000 [1] [0] [0] [1] [] []
  gather_S4096x1000_S4096x1_S4096x1000_1_0_n_n_0_1_11000_wf : GatherDims.WF S4096x1000 S4096x1 S4096x1000 [1] [0] [] [0] [] 1 ![1, 1000]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .bf16 = 32 ∨ (Rect.block (s := S16384x2048) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S1024x1000.size a
  hwx0_2 : ∀ i : grid0.Coords, EltTy.bits .bf16 = 32 ∨ (Rect.block (s := S1024x1000) S1024x1000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S16384x1000.size a
  hwx0_3 : ∀ i : grid0.Coords, EltTy.bits .f32 = 32 ∨ (Rect.block (s := S16384x1000) S1024x1000.size (cc0_transform_3 i) (hinb0_3 i)).WholeWords (EltTy.packing .f32)

variable [Facts₀]

def gather_S4096x2048_S4096x1_S4096x2048_1_0_n_n_0_1_12048 : GatherDims S4096x2048 S4096x1 S4096x2048 where
  offsetDims := [1]
  collapsedSliceDims := [0]
  operandBatchingDims := []
  startIndicesBatchingDims := []
  startIndexMap := [0]
  indexVectorDim := 1
  sliceSizes := ![1, 2048]
  wf := gather_S4096x2048_S4096x1_S4096x2048_1_0_n_n_0_1_12048_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x1000_S1024x1000_1_0_0_1_n_n : DotDims S1024x1024 S1024x1000 S1024x1000 where
  lhsContracting := [1]
  rhsContracting := [0]
  lhsNonContracting := [0]
  rhsNonContracting := [1]
  lhsBatch := []
  rhsBatch := []
  wf := dot_S1024x1024_S1024x1000_S1024x1000_1_0_0_1_n_n_wf
def gather_S4096x1000_S4096x1_S4096x1000_1_0_n_n_0_1_11000 : GatherDims S4096x1000 S4096x1 S4096x1000 where
  offsetDims := [1]
  collapsedSliceDims := [0]
  operandBatchingDims := []
  startIndicesBatchingDims := []
  startIndexMap := [0]
  indexVectorDim := 1
  sliceSizes := ![1, 1000]
  wf := gather_S4096x1000_S4096x1_S4096x1000_1_0_n_n_0_1_11000_wf

abbrev win0_0 : Pipeline.Window sig grid0 :=
  Pipeline.Window.ofSpec (Memref.whole main_v24) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1024x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S2048x1024 : Shape := ⟨2, ![2048, 1024]⟩
abbrev S2000x1024 : Shape := ⟨2, ![2000, 1024]⟩
abbrev S_ : Shape := ⟨0, ![]⟩
abbrev S4096x1 : Shape := ⟨2, ![4096, 1]⟩
abbrev S4096x1024 : Shape := ⟨2, ![4096, 1024]⟩
abbrev S2000 : Shape := ⟨1, ![2000]⟩
abbrev S2000x1 : Shape := ⟨2, ![2000, 1]⟩
abbrev S1000x1024 : Shape := ⟨2, ![1000, 1024]⟩
abbrev S1024x1000 : Shape := ⟨2, ![1024, 1000]⟩
abbrev S4096x1000 : Shape := ⟨2, ![4096, 1000]⟩
abbrev S1000 : Shape := ⟨1, ![1000]⟩
abbrev S1x1000 : Shape := ⟨2, ![1, 1000]⟩

abbrev nBuf : Space → Nat
  | .hbm => 338
  | .vmem => 0
  | .smem => 0
  | _ => 0

abbrev hbmTy0_0 (i : Nat) : BufTy := match i % 128 with
  | 0 => ⟨S4096x2048, .f32⟩
  | 1 => ⟨S4096x2048, .f32⟩
  | 2 => ⟨S4096, .i32⟩
  | 3 => ⟨S4096, .i32⟩
  | 4 => ⟨S2048x1024, .f32⟩
  | 5 => ⟨S2000x1024, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x2048, .f32⟩
  | 28 => ⟨S4096x2048, .f32⟩
  | 29 => ⟨S_, .f32⟩
  | 30 => ⟨S4096x2048, .f32⟩
  | 31 => ⟨S4096x2048, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S4096, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1024, .f32⟩
  | 75 => ⟨S4096x1024, .f32⟩
  | 76 => ⟨S2000x1024, .f32⟩
  | 77 => ⟨S_, .f32⟩
  | 78 => ⟨S2000, .f32⟩
  | 79 => ⟨S2000x1, .f32⟩
  | 80 => ⟨S2000x1, .f32⟩
  | 81 => ⟨S_, .f32⟩
  | 82 => ⟨S2000x1, .f32⟩
  | 83 => ⟨S2000x1, .f32⟩
  | 84 => ⟨S2000x1024, .f32⟩
  | 85 => ⟨S2000x1024, .f32⟩
  | 86 => ⟨S1000x1024, .f32⟩
  | 87 => ⟨S1024x1000, .f32⟩
  | 88 => ⟨S4096x1000, .f32⟩
  | 89 => ⟨S1024x1000, .f32⟩
  | 90 => ⟨S4096x1000, .f32⟩
  | 91 => ⟨S_, .f32⟩
  | 92 => ⟨S4096x1000, .f32⟩
  | 93 => ⟨S4096x1000, .f32⟩
  | 94 => ⟨S_, .f32⟩
  | 95 => ⟨S4096, .f32⟩
  | 96 => ⟨S_, .f32⟩
  | 97 => ⟨S4096, .f32⟩
  | 98 => ⟨S4096, .f32⟩
  | 99 => ⟨S4096x1, .f32⟩
  | 100 => ⟨S4096x1000, .f32⟩
  | 101 => ⟨S4096x1000, .f32⟩
  | 102 => ⟨S4096x1000, .f32⟩
  | 103 => ⟨S_, .f32⟩
  | 104 => ⟨S4096, .f32⟩
  | 105 => ⟨S4096x1, .f32⟩
  | 106 => ⟨S4096x1, .f32⟩
  | 107 => ⟨S4096x1000, .f32⟩
  | 108 => ⟨S4096x1000, .f32⟩
  | 109 => ⟨S_, .f32⟩
  | 110 => ⟨S4096x1000, .f32⟩
  | 111 => ⟨S4096x1000, .f32⟩
  | 112 => ⟨S_, .f32⟩
  | 113 => ⟨S4096, .f32⟩
  | 114 => ⟨S_, .f32⟩
  | 115 => ⟨S4096, .f32⟩
  | 116 => ⟨S4096, .f32⟩
  | 117 => ⟨S4096x1, .f32⟩
  | 118 => ⟨S4096x1000, .f32⟩
  | 119 => ⟨S4096x1000, .f32⟩
  | 120 => ⟨S4096x1000, .f32⟩
  | 121 => ⟨S_, .f32⟩
  | 122 => ⟨S4096, .f32⟩
  | 123 => ⟨S4096x1, .f32⟩
  | 124 => ⟨S4096x1, .f32⟩
  | 125 => ⟨S4096x1000, .f32⟩
  | 126 => ⟨S4096x1000, .f32⟩
  | 127 => ⟨S1024x1000, .f32⟩
  | _ => ⟨S4096x2048, .f32⟩

abbrev hbmTy0_1 (i : Nat) : BufTy := match i % 128 with
  | 0 => ⟨S4096x1000, .f32⟩
  | 1 => ⟨S_, .f32⟩
  | 2 => ⟨S4096x1000, .f32⟩
  | 3 => ⟨S4096x1000, .f32⟩
  | 4 => ⟨S_, .f32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x1000, .f32⟩
  | 11 => ⟨S4096x1000, .f32⟩
  | 12 => ⟨S4096x1000, .f32⟩
  | 13 => ⟨S_, .f32⟩
  | 14 => ⟨S4096, .f32⟩
  | 15 => ⟨S4096x1, .f32⟩
  | 16 => ⟨S4096x1, .f32⟩
  | 17 => ⟨S4096x1000, .f32⟩
  | 18 => ⟨S4096x1000, .f32⟩
  | 19 => ⟨S1024x1000, .f32⟩
  | 20 => ⟨S4096x1000, .f32⟩
  | 21 => ⟨S_, .f32⟩
  | 22 => ⟨S4096x1000, .f32⟩
  | 23 => ⟨S4096x1000, .f32⟩
  | 24 => ⟨S_, .f32⟩
  | 25 => ⟨S4096, .f32⟩
  | 26 => ⟨S_, .f32⟩
  | 27 => ⟨S4096, .f32⟩
  | 28 => ⟨S4096, .f32⟩
  | 29 => ⟨S4096x1, .f32⟩
  | 30 => ⟨S4096x1000, .f32⟩
  | 31 => ⟨S4096x1000, .f32⟩
  | 32 => ⟨S4096x1000, .f32⟩
  | 33 => ⟨S_, .f32⟩
  | 34 => ⟨S4096, .f32⟩
  | 35 => ⟨S4096x1, .f32⟩
  | 36 => ⟨S4096x1, .f32⟩
  | 37 => ⟨S4096x1000, .f32⟩
  | 38 => ⟨S4096x1000, .f32⟩
  | 39 => ⟨S_, .f32⟩
  | 40 => ⟨S4096x1000, .f32⟩
  | 41 => ⟨S4096x1000, .f32⟩
  | 42 => ⟨S4096x1000, .f32⟩
  | 43 => ⟨S_, .f32⟩
  | 44 => ⟨S4096, .f32⟩
  | 45 => ⟨S4096x1, .f32⟩
  | 46 => ⟨S4096x1000, .f32⟩
  | 47 => ⟨S4096x1000, .f32⟩
  | 48 => ⟨S_, .f32⟩
  | 49 => ⟨S1000, .f32⟩
  | 50 => ⟨S1x1000, .f32⟩
  | 51 => ⟨S4096x1000, .f32⟩
  | 52 => ⟨S4096x1000, .f32⟩
  | 53 => ⟨S_, .f32⟩
  | 54 => ⟨S4096, .f32⟩
  | 55 => ⟨S4096x1, .f32⟩
  | 56 => ⟨S4096x1000, .f32⟩
  | 57 => ⟨S4096x1000, .f32⟩
  | 58 => ⟨S_, .f32⟩
  | 59 => ⟨S1000, .f32⟩
  | 60 => ⟨S1x1000, .f32⟩
  | 61 => ⟨S4096x1000, .f32⟩
  | 62 => ⟨S4096x1000, .f32⟩
  | 63 => ⟨S_, .f32⟩
  | 64 => ⟨S4096, .f32⟩
  | 65 => ⟨S4096x1, .f32⟩
  | 66 => ⟨S4096x1000, .f32⟩
  | 67 => ⟨S4096x1000, .f32⟩
  | 68 => ⟨S_, .f32⟩
  | 69 => ⟨S1000, .f32⟩
  | 70 => ⟨S1x1000, .f32⟩
  | 71 => ⟨S4096x1000, .f32⟩
  | 72 => ⟨S4096x1000, .f32⟩
  | 73 => ⟨S_, .f32⟩
  | 74 => ⟨S4096, .f32⟩
  | 75 => ⟨S4096x1, .f32⟩
  | 76 => ⟨S4096x1000, .f32⟩
  | 77 => ⟨S4096x1000, .f32⟩
  | 78 => ⟨S_, .i32⟩
  | 79 => ⟨S4096, .i32⟩
  | 80 => ⟨S4096, .i32⟩
  | 81 => ⟨S4096x1, .i32⟩
  | 82 => ⟨S1x1000, .i32⟩
  | 83 => ⟨S4096x1000, .i32⟩
  | 84 => ⟨S4096x1000, .i32⟩
  | 85 => ⟨S4096x1000, .i1⟩
  | 86 => ⟨S4096x1000, .f32⟩
  | 87 => ⟨S_, .i32⟩
  | 88 => ⟨S4096, .i32⟩
  | 89 => ⟨S4096, .i1⟩
  | 90 => ⟨S4096x1, .i1⟩
  | 91 => ⟨S4096x1000, .i1⟩
  | 92 => ⟨S4096x1000, .f32⟩
  | 93 => ⟨S_, .f32⟩
  | 94 => ⟨S4096x1000, .f32⟩
  | 95 => ⟨S4096x1000, .f32⟩
  | 96 => ⟨S4096x1000, .f32⟩
  | 97 => ⟨S_, .f32⟩
  | 98 => ⟨S4096, .f32⟩
  | 99 => ⟨S4096x1, .f32⟩
  | 100 => ⟨S4096x1000, .f32⟩
  | 101 => ⟨S4096x1000, .f32⟩
  | 102 => ⟨S_, .f32⟩
  | 103 => ⟨S1000, .f32⟩
  | 104 => ⟨S1x1000, .f32⟩
  | 105 => ⟨S4096x1000, .f32⟩
  | 106 => ⟨S4096x1000, .f32⟩
  | 107 => ⟨S_, .f32⟩
  | 108 => ⟨S4096, .f32⟩
  | 109 => ⟨S4096x1, .f32⟩
  | 110 => ⟨S4096x1000, .f32⟩
  | 111 => ⟨S4096x1000, .f32⟩
  | 112 => ⟨S_, .f32⟩
  | 113 => ⟨S1000, .f32⟩
  | 114 => ⟨S1x1000, .f32⟩
  | 115 => ⟨S4096x1000, .f32⟩
  | 116 => ⟨S4096x1000, .f32⟩
  | 117 => ⟨S_, .f32⟩
  | 118 => ⟨S4096, .f32⟩
  | 119 => ⟨S4096x1, .f32⟩
  | 120 => ⟨S4096x1000, .f32⟩
  | 121 => ⟨S4096x1000, .f32⟩
  | 122 => ⟨S_, .f32⟩
  | 123 => ⟨S1000, .f32⟩
  | 124 => ⟨S1x1000, .f32⟩
  | 125 => ⟨S4096x1000, .f32⟩
  | 126 => ⟨S4096x1000, .f32⟩
  | 127 => ⟨S_, .f32⟩
  | _ => ⟨S4096x2048, .f32⟩

abbrev hbmTy0_2 (i : Nat) : BufTy := match i % 128 with
  | 0 => ⟨S4096, .f32⟩
  | 1 => ⟨S4096x1, .f32⟩
  | 2 => ⟨S4096x1000, .f32⟩
  | 3 => ⟨S4096x1000, .f32⟩
  | 4 => ⟨S_, .i32⟩
  | 5 => ⟨S4096, .i32⟩
  | 6 => ⟨S4096, .i32⟩
  | 7 => ⟨S4096x1, .i32⟩
  | 8 => ⟨S1x1000, .i32⟩
  | 9 => ⟨S4096x1000, .i32⟩
  | 10 => ⟨S4096x1000, .i32⟩
  | 11 => ⟨S4096x1000, .i1⟩
  | 12 => ⟨S4096x1000, .f32⟩
  | 13 => ⟨S_, .i32⟩
  | 14 => ⟨S4096, .i32⟩
  | 15 => ⟨S4096, .i1⟩
  | 16 => ⟨S4096x1, .i1⟩
  | 17 => ⟨S4096x1000, .i1⟩
  | 18 => ⟨S4096x1000, .f32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x1000, .f32⟩
  | 28 => ⟨S4096x1000, .f32⟩
  | 29 => ⟨S_, .f32⟩
  | 30 => ⟨S4096x1000, .f32⟩
  | 31 => ⟨S4096x1000, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x1000, .f32⟩
  | 41 => ⟨S4096x1000, .f32⟩
  | 42 => ⟨S_, .f32⟩
  | 43 => ⟨S4096x1000, .f32⟩
  | 44 => ⟨S4096x1000, .f32⟩
  | 45 => ⟨S4096x1000, .f32⟩
  | 46 => ⟨S_, .f32⟩
  | 47 => ⟨S4096, .f32⟩
  | 48 => ⟨S4096, .f32⟩
  | 49 => ⟨S_, .f32⟩
  | 50 => ⟨S_, .f32⟩
  | 51 => ⟨S_, .f32⟩
  | 52 => ⟨S_, .f32⟩
  | 53 => ⟨S4096x1000, .f32⟩
  | 54 => ⟨S_, .f32⟩
  | 55 => ⟨S4096, .f32⟩
  | 56 => ⟨S4096, .f32⟩
  | 57 => ⟨S_, .f32⟩
  | 58 => ⟨S_, .f32⟩
  | 59 => ⟨S_, .f32⟩
  | 60 => ⟨S_, .f32⟩
  | 61 => ⟨S_, .f32⟩
  | 62 => ⟨S4096x1000, .f32⟩
  | 63 => ⟨S_, .f32⟩
  | 64 => ⟨S4096, .f32⟩
  | 65 => ⟨S4096, .f32⟩
  | 66 => ⟨S_, .f32⟩
  | 67 => ⟨S_, .f32⟩
  | 68 => ⟨S_, .f32⟩
  | 69 => ⟨S_, .f32⟩
  | 70 => ⟨S4096x1000, .f32⟩
  | 71 => ⟨S_, .f32⟩
  | 72 => ⟨S4096, .f32⟩
  | 73 => ⟨S4096, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_call2_v2 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call3_v0 : Ref sig .tc := ⟨.hbm, 66, rfl⟩
abbrev main_call3_cst : Ref sig .tc := ⟨.hbm, 67, rfl⟩
abbrev main_call3_v1 : Ref sig .tc := ⟨.hbm, 68, rfl⟩
abbrev main_call3_v2 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call4_v0 : Ref sig .tc := ⟨.hbm, 76, rfl⟩
abbrev main_call4_cst : Ref sig .tc := ⟨.hbm, 77, rfl⟩
abbrev main_call4_v1 : Ref sig .tc := ⟨.hbm, 78, rfl⟩
abbrev main_call4_v2 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_9 : Ref sig .tc := ⟨.hbm, 91, rfl⟩
abbrev main_v54 : Ref sig .tc := ⟨.hbm, 92, rfl⟩
abbrev main_v55 : Ref sig .tc := ⟨.hbm, 93, rfl⟩
abbrev main_call5_cst : Ref sig .tc := ⟨.hbm, 94, rfl⟩
abbrev main_call5_v0 : Ref sig .tc := ⟨.hbm, 95, rfl⟩
abbrev main_call5_cst_0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_v5 : Ref sig .tc := ⟨.hbm, 101, rfl⟩
abbrev main_call5_v6 : Ref sig .tc := ⟨.hbm, 102, rfl⟩
abbrev main_call5_cst_1 : Ref sig .tc := ⟨.hbm, 103, rfl⟩
abbrev main_call5_v7 : Ref sig .tc := ⟨.hbm, 104, rfl⟩
abbrev main_call5_v8 : Ref sig .tc := ⟨.hbm, 105, rfl⟩
abbrev main_call5_v9 : Ref sig .tc := ⟨.hbm, 106, rfl⟩
abbrev main_call5_v10 : Ref sig .tc := ⟨.hbm, 107, rfl⟩
abbrev main_v56 : Ref sig .tc := ⟨.hbm, 108, rfl⟩
abbrev main_cst_10 : Ref sig .tc := ⟨.hbm, 109, rfl⟩
abbrev main_v57 : Ref sig .tc := ⟨.hbm, 110, rfl⟩
abbrev main_v58 : Ref sig .tc := ⟨.hbm, 111, rfl⟩
abbrev main_call6_cst : Ref sig .tc := ⟨.hbm, 112, rfl⟩
abbrev main_call6_v0 : Ref sig .tc := ⟨.hbm, 113, rfl⟩
abbrev main_call6_cst_0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_v6 : Ref sig .tc := ⟨.hbm, 120, rfl⟩
abbrev main_call6_cst_1 : Ref sig .tc := ⟨.hbm, 121, rfl⟩
abbrev main_call6_v7 : Ref sig .tc := ⟨.hbm, 122, rfl⟩
abbrev main_call6_v8 : Ref sig .tc := ⟨.hbm, 123, rfl⟩
abbrev main_call6_v9 : Ref sig .tc := ⟨.hbm, 124, rfl⟩
abbrev main_call6_v10 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_cst_11 : Ref sig .tc := ⟨.hbm, 129, rfl⟩
abbrev main_v62 : Ref sig .tc := ⟨.hbm, 130, rfl⟩
abbrev main_v63 : Ref sig .tc := ⟨.hbm, 131, rfl⟩
abbrev main_call7_cst : Ref sig .tc := ⟨.hbm, 132, rfl⟩
abbrev main_call7_v0 : Ref sig .tc := ⟨.hbm, 133, rfl⟩
abbrev main_call7_cst_0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_call7_v5 : Ref sig .tc := ⟨.hbm, 139, rfl⟩
abbrev main_call7_v6 : Ref sig .tc := ⟨.hbm, 140, rfl⟩
abbrev main_call7_cst_1 : Ref sig .tc := ⟨.hbm, 141, rfl⟩
abbrev main_call7_v7 : Ref sig .tc := ⟨.hbm, 142, rfl⟩
abbrev main_call7_v8 : Ref sig .tc := ⟨.hbm, 143, rfl⟩
abbrev main_call7_v9 : Ref sig .tc := ⟨.hbm, 144, rfl⟩
abbrev main_call7_v10 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_cst_12 : Ref sig .tc := ⟨.hbm, 149, rfl⟩
abbrev main_v67 : Ref sig .tc := ⟨.hbm, 150, rfl⟩
abbrev main_v68 : Ref sig .tc := ⟨.hbm, 151, rfl⟩
abbrev main_call8_cst : Ref sig .tc := ⟨.hbm, 152, rfl⟩
abbrev main_call8_v0 : Ref sig .tc := ⟨.hbm, 153, rfl⟩
abbrev main_call8_cst_0 : Ref sig .tc := ⟨.hbm, 154, rfl⟩
abbrev main_call8_v1 : Ref sig .tc := ⟨.hbm, 155, rfl⟩
abbrev main_call8_v2 : Ref sig .tc := ⟨.hbm, 156, rfl⟩
abbrev main_call8_v3 : Ref sig .tc := ⟨.hbm, 157, rfl⟩
abbrev main_call8_v4 : Ref sig .tc := ⟨.hbm, 158, rfl⟩
abbrev main_call8_v5 : Ref sig .tc := ⟨.hbm, 159, rfl⟩
abbrev main_call8_v6 : Ref sig .tc := ⟨.hbm, 160, rfl⟩
abbrev main_call8_cst_1 : Ref sig .tc := ⟨.hbm, 161, rfl⟩
abbrev main_call8_v7 : Ref sig .tc := ⟨.hbm, 162, rfl⟩
abbrev main_call8_v8 : Ref sig .tc := ⟨.hbm, 163, rfl⟩
abbrev main_call8_v9 : Ref sig .tc := ⟨.hbm, 164, rfl⟩
abbrev main_call8_v10 : Ref sig .tc := ⟨.hbm, 165, rfl⟩
abbrev main_v69 : Ref sig .tc := ⟨.hbm, 166, rfl⟩
abbrev main_cst_13 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_cst_14 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_cst_15 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_cst_16 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_cst_17 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_cst_18 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_cst_19 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_cst_20 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_c_21 : Ref sig .tc := ⟨.hbm, 206, rfl⟩
abbrev main_v101 : Ref sig .tc := ⟨.hbm, 207, rfl⟩
abbrev main_v102 : Ref sig .tc := ⟨.hbm, 208, rfl⟩
abbrev main_call9_v0 : Ref sig .tc := ⟨.hbm, 209, rfl⟩
abbrev main_call9_v1 : Ref sig .tc := ⟨.hbm, 210, rfl⟩
abbrev main_call9_v2 : Ref sig .tc := ⟨.hbm, 211, rfl⟩
abbrev main_call9_v3 : Ref sig .tc := ⟨.hbm, 212, rfl⟩
abbrev main_call9_v4 : Ref sig .tc := ⟨.hbm, 213, rfl⟩
abbrev main_v103 : Ref sig .tc := ⟨.hbm, 214, rfl⟩
abbrev main_c_22 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_call10_v0 : Ref sig .tc := ⟨.hbm, 219, rfl⟩
abbrev main_v107 : Ref sig .tc := ⟨.hbm, 220, rfl⟩
abbrev main_cst_23 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_cst_24 : Ref sig .tc := ⟨.hbm, 225, rfl⟩
abbrev main_v111 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_25 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_cst_26 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_cst_27 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_cst_28 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_cst_29 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_cst_30 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_c_31 : Ref sig .tc := ⟨.hbm, 260, rfl⟩
abbrev main_v139 : Ref sig .tc := ⟨.hbm, 261, rfl⟩
abbrev main_v140 : Ref sig .tc := ⟨.hbm, 262, rfl⟩
abbrev main_call11_v0 : Ref sig .tc := ⟨.hbm, 263, rfl⟩
abbrev main_call11_v1 : Ref sig .tc := ⟨.hbm, 264, rfl⟩
abbrev main_call11_v2 : Ref sig .tc := ⟨.hbm, 265, rfl⟩
abbrev main_call11_v3 : Ref sig .tc := ⟨.hbm, 266, rfl⟩
abbrev main_call11_v4 : Ref sig .tc := ⟨.hbm, 267, rfl⟩
abbrev main_v141 : Ref sig .tc := ⟨.hbm, 268, rfl⟩
abbrev main_c_32 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_call12_v0 : Ref sig .tc := ⟨.hbm, 273, rfl⟩
abbrev main_v145 : Ref sig .tc := ⟨.hbm, 274, rfl⟩
abbrev main_c_33 : Ref sig .tc := ⟨.hbm, 275, rfl⟩
abbrev main_v146 : Ref sig .tc := ⟨.hbm, 276, rfl⟩
abbrev main_v147 : Ref sig .tc := ⟨.hbm, 277, rfl⟩
abbrev main_c_34 : Ref sig .tc := ⟨.hbm, 278, rfl⟩
abbrev main_v148 : Ref sig .tc := ⟨.hbm, 279, rfl⟩
abbrev main_v149 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_cst_35 : Ref sig .tc := ⟨.hbm, 285, rfl⟩
abbrev main_v154 : Ref sig .tc := ⟨.hbm, 286, rfl⟩
abbrev main_v155 : Ref sig .tc := ⟨.hbm, 287, rfl⟩
abbrev main_c_36 : Ref sig .tc := ⟨.hbm, 288, rfl⟩
abbrev main_v156 : Ref sig .tc := ⟨.hbm, 289, rfl⟩
abbrev main_v157 : Ref sig .tc := ⟨.hbm, 290, rfl⟩
abbrev main_c_37 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_cst_38 : Ref sig .tc := ⟨.hbm, 298, rfl⟩
abbrev main_v164 : Ref sig .tc := ⟨.hbm, 299, rfl⟩
abbrev main_v165 : Ref sig .tc := ⟨.hbm, 300, rfl⟩
abbrev main_v166 : Ref sig .tc := ⟨.hbm, 301, rfl⟩
abbrev main_cst_39 : Ref sig .tc := ⟨.hbm, 302, rfl⟩
abbrev main_v167 : Ref sig .tc := ⟨.hbm, 303, rfl⟩
abbrev main_v168 : Ref sig .tc := ⟨.hbm, 304, rfl⟩
abbrev main_cst_40 : Ref sig .tc := ⟨.hbm, 305, rfl⟩
abbrev main_v169 : Ref sig .tc := ⟨.hbm, 306, rfl⟩
abbrev main_cst_41 : Ref sig .tc := ⟨.hbm, 307, rfl⟩
abbrev main_v170 : Ref sig .tc := ⟨.hbm, 308, rfl⟩
abbrev main_v171 : Ref sig .tc := ⟨.hbm, 309, rfl⟩
abbrev main_cst_42 : Ref sig .tc := ⟨.hbm, 310, rfl⟩
abbrev main_v172 : Ref sig .tc := ⟨.hbm, 311, rfl⟩
abbrev main_v173 : Ref sig .tc := ⟨.hbm, 312, rfl⟩
abbrev main_cst_43 : Ref sig .tc := ⟨.hbm, 313, rfl⟩
abbrev main_v174 : Ref sig .tc := ⟨.hbm, 314, rfl⟩
abbrev main_cst_44 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_cst_45 : Ref sig .tc := ⟨.hbm, 319, rfl⟩
abbrev main_v178 : Ref sig .tc := ⟨.hbm, 320, rfl⟩
abbrev main_v179 : Ref sig .tc := ⟨.hbm, 321, rfl⟩
abbrev main_cst_46 : Ref sig .tc := ⟨.hbm, 322, rfl⟩
abbrev main_v180 : Ref sig .tc := ⟨.hbm, 323, rfl⟩
abbrev main_cst_47 : Ref sig .tc := ⟨.hbm, 324, rfl⟩
abbrev main_v181 : Ref sig .tc := ⟨.hbm, 325, rfl⟩
abbrev main_v182 : Ref sig .tc := ⟨.hbm, 326, rfl⟩
abbrev main_cst_48 : Ref sig .tc := ⟨.hbm, 327, rfl⟩
abbrev main_v183 : Ref sig .tc := ⟨.hbm, 328, rfl⟩
abbrev main_v184 : Ref sig .tc := ⟨.hbm, 329, rfl⟩
abbrev main_cst_49 : Ref sig .tc := ⟨.hbm, 330, rfl⟩
abbrev main_v185 : Ref sig .tc := ⟨.hbm, 331, rfl⟩
abbrev main_cst_50 : Ref sig .tc := ⟨.hbm, 332, rfl⟩
abbrev main_v186 : Ref sig .tc := ⟨.hbm, 333, rfl⟩
abbrev main_v187 : Ref sig .tc := ⟨.hbm, 334, rfl⟩
abbrev main_v188 : Ref sig .tc := ⟨.hbm, 335, rfl⟩
abbrev main_cst_51 : Ref sig .tc := ⟨.hbm, 336, rfl⟩
abbrev main_v189 : Ref sig .tc := ⟨.hbm, 337, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x2048 : S_.BroadcastsInDim S4096x2048 (![] : Fin 0 → Fin S4096x2048.rank)
  reducesTo_S4096x1024_S4096_d1 : S4096x1024.ReducesTo [1] S4096
  h_S_ : 0 < S_.numel
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S2000x1024_S2000_d1 : S2000x1024.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x1024_0_1 : S2000x1.BroadcastsInDim S2000x1024 (![0, 1] : Fin 2 → Fin S2000x1024.rank)
  slices_S2000x1024_S1000x1024_0_0 : S2000x1024.Slices ![0, 0] S1000x1024
  transposes_S1000x1024_S1024x1000_1_0 : S1000x1024.Transposes [1, 0] S1024x1000
  bcast_S_S4096x1000 : S_.BroadcastsInDim S4096x1000 (![] : Fin 0 → Fin S4096x1000.rank)
  reducesTo_S4096x1000_S4096_d1 : S4096x1000.ReducesTo [1] S4096
  bcast_S4096x1_S4096x1000_0_1 : S4096x1.BroadcastsInDim S4096x1000 (![0, 1] : Fin 2 → Fin S4096x1000.rank)
  reducesTo_S4096x1000_S1000_d0 : S4096x1000.ReducesTo [0] S1000
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  reducesTo_S4096_S_d0 : S4096.ReducesTo [0] S_
  gather_S4096x2048_S4096x1_S4096x2048_1_0_n_n_0_1_12048_wf : GatherDims.WF S4096x2048 S4096x1 S4096x2048 [1] [0] [] [0] [] 1 ![1, 2048]
  dot_S4096x2048_S2048x1024_S4096x1024_1_0_0_1_n_n_wf : DotDims.WF S4096x2048 S2048x1024 S4096x1024 [1] [0] [0] [1] [] []
  dot_S4096x1024_S1024x1000_S4096x1000_1_0_0_1_n_n_wf : DotDims.WF S4096x1024 S1024x1000 S4096x1000 [1] [0] [0] [1] [] []
  gather_S4096x1000_S4096x1_S4096x1000_1_0_n_n_0_1_11000_wf : GatherDims.WF S4096x1000 S4096x1 S4096x1000 [1] [0] [] [0] [] 1 ![1, 1000]

variable [Facts₀]

def gather_S4096x2048_S4096x1_S4096x2048_1_0_n_n_0_1_12048 : GatherDims S4096x2048 S4096x1 S4096x2048 where
  offsetDims := [1]
  collapsedSliceDims := [0]
  operandBatchingDims := []
  startIndicesBatchingDims := []
  startIndexMap := [0]
  indexVectorDim := 1
  sliceSizes := ![1, 2048]
  wf := gather_S4096x2048_S4096x1_S4096x2048_1_0_n_n_0_1_12048_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x1000_S4096x1000_1_0_0_1_n_n : DotDims S4096x1024 S1024x1000 S4096x1000 where
  lhsContracting := [1]
  rhsContracting := [0]
  lhsNonContracting := [0]
  rhsNonContracting := [1]
  lhsBatch := []
  rhsBatch := []
  wf := dot_S4096x1024_S1024x1000_S4096x1000_1_0_0_1_n_n_wf
def gather_S4096x1000_S4096x1_S4096x1000_1_0_n_n_0_1_11000 : GatherDims S4096x1000 S4096x1 S4096x1000 where
  offsetDims := [1]
  collapsedSliceDims := [0]
  operandBatchingDims := []
  startIndicesBatchingDims := []
  startIndexMap := [0]
  indexVectorDim := 1
  sliceSizes := ![1, 1000]
  wf := gather_S4096x1000_S4096x1_S4096x1000_1_0_n_n_0_1_11000_wf

class Facts : Prop extends Facts₀ where

variable [Facts]
-- ==== Proof.KernelAround.lean ====
/-
  The program around its one kernel region: the host lines before the region, the region's windows, and the host
  lines after it, named so that the frame run and the value of the result can be stated over them.

  The kernel multiplies a block of 1024 rows of the stacked inputs by the backbone weights, divides each row by its
  Euclidean norm (bounded below by a small constant), and multiplies by the transposed prototypes.  Its body loads the
  three input blocks whole and stores the 1024 x 1000 block of logits whole; so after the body the output's buffer is
  that one store over the three loaded blocks, and the inputs' buffers are as loaded.
-/
import proofs.«127123_j21672404975748_1_alg».proof.Proof.Gen.Kernel.Launch
import proofs.«127123_j21672404975748_1_alg».proof.Proof.Gen.Kernel.Skeleton
import proofs.«127123_j21672404975748_1_alg».proof.Proof.Gen.Kernel.Points
import Idealize.ShloMosaic.Lib.Pipeline.FrameBody
import Idealize.ShloMosaic.Lib.Pipeline.FrameSuffix

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (m : (ℓ : Loc nD τ sig) → Buf (Elt F) ℓ)

/-- The host lines before the region, stretch by stretch: the batch mixing and the stacked bf16 inputs, the
    prototypes' row norms, and the normalised, sliced and transposed prototypes. -/
abbrev preOps : List (List (HloOp τ sig (Elt F))) := [hostOps0, hostOps0_1, hostOps0_2]

/-- The host lines after the region, stretch by stretch: the four slices of the logits, the four log-softmaxes, the two
    Sinkhorn normalisations with their one-hot overrides, and the cross-entropy reduction. -/
abbrev tailOps : List (List (HloOp τ sig (Elt F))) :=
  [hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15, hostOps1_16]

/-- A core's buffer contents when the region is entered: the lines before it applied to the launch memory. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 1024 x 2048 block of stacked input rows, -/
abbrev rX : Rect S1024x2048 := Rect.unit (s := S1024x2048) ![0, 0] S1024x2048.size inb_S1024x2048_S1024x2048_0_0
/-- the whole 2048 x 1024 weight matrix, -/
abbrev rW : Rect S2048x1024 := Rect.unit (s := S2048x1024) ![0, 0] S2048x1024.size inb_S2048x1024_S2048x1024_0_0
/-- and the whole 1024 x 1000 block (the transposed prototypes on the way in, the logits on the way out). -/
abbrev rC : Rect S1024x1000 := Rect.unit (s := S1024x1000) ![0, 0] S1024x1000.size inb_S1024x1000_S1024x1000_0_0

/-- What the body leaves in the output window's buffer: its one whole-block store of the logits computed from the
    three loaded blocks. -/
def out0_3 (x0 : Vec F S1024x2048 .bf16) (x1 : Vec F S2048x1024 .bf16) (x2 : Vec F S1024x1000 .bf16) : Vec F S1024x1000 .f32 :=
  View.canon [⟨rC, k0_pay1 (View.ld x0 rX) (View.ld x1 rW) (View.ld x2 rC)⟩]

/-- The region's proof data on core `c`: the arrays as the region finds them; after the body at point `t` each input's
    buffer at its block and the output's at the logits of the three input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.Kernel.Around

end
-- ==== Proof.KernelFrame.lean ====
/-
  The frame of the program around its one kernel region.

  The program is three stretches of host lines, the region, and seventeen more stretches of host lines.  Every host
  line allocates nothing and writes exactly one buffer, its own result; listing those results stretch by stretch, a
  buffer that is in none of the lists is never written.  The six argument arrays are in no list at all, and the four
  arrays the region's windows stage are in no list of the stretches after the region.  So the region finds the
  arguments as launched, the later lines leave the windows' arrays alone, and the arguments end as launched.

  The kernel body loads its three input blocks and the output block whole and stores the output block whole, once.
  Whatever the output's buffer held, after the body it holds that one store over the three loaded blocks; the inputs'
  buffers are as loaded.  An input window that is not fetched at a point has not moved its block index since the point
  before, so its buffer holds its block at every point, fetched there or not.
-/
import proofs.«127123_j21672404975748_1_alg».proof.Proof.KernelAround
import Idealize.ShloMosaic.Lib.Pipeline.FrameBody
import Idealize.ShloMosaic.Lib.Pipeline.FrameSuffix
import Idealize.ShloMosaic.Lib.Ring
import Idealize.ShloMosaic.Lib.Tactic

-- membership in a whole-block rectangle of extents 1024 x 1000 is looked at once per coordinate of the long axes
set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Host lines that write one buffer each -/

/-- Every operation of the stretch `ops` allocates nothing and writes exactly one buffer: the one the list `W` names
    at the operation's place. -/
abbrev Plain (ops : List (HloOp τ sig (Elt F))) (W : List (Ref sig .tc)) : Prop :=
  List.Forall₂ (fun op y => op.fresh = ∅ ∧ op.writes = {Proc.devRef (τ := τ) .tc y}) ops W

/-- Such a stretch allocates nothing. -/
theorem Plain.fresh {ops : List (HloOp τ sig (Elt F))} {W : List (Ref sig .tc)} (h : Plain ops W) :
    ∀ op ∈ ops, op.fresh = ∅ := by
  induction h with
  | nil => intro op hop; cases hop
  | cons hab _ ih =>
    intro op hop
    rcases List.mem_cons.mp hop with rfl | hop
    · exact hab.1
    · exact ih op hop

/-- A buffer the list does not name is written by no operation of the stretch. -/
theorem Plain.keeps {ops : List (HloOp τ sig (Elt F))} {W : List (Ref sig .tc)} (h : Plain ops W)
    {r : Ref sig .tc} (hr : r ∉ W) : ∀ op ∈ ops, Proc.devRef (τ := τ) .tc r ∉ op.writes := by
  induction h with
  | nil => intro op hop; cases hop
  | cons hab _ ih =>
    intro op hop
    rcases List.mem_cons.mp hop with rfl | hop
    · rw [hab.2, Finset.mem_singleton]
      exact StableHlo.devRef_ne_of_ne fun e => hr (e ▸ List.mem_cons_self)
    · exact ih (fun h' => hr (List.mem_cons_of_mem _ h')) op hop

/-- Stretch by stretch: nothing is allocated, -/
theorem fresh_of {opss : List (List (HloOp τ sig (Elt F)))} {Ws : List (List (Ref sig .tc))}
    (h : List.Forall₂ (Plain (F := F)) opss Ws) : ∀ ops ∈ opss, ∀ op ∈ ops, op.fresh = ∅ := by
  induction h with
  | nil => intro ops hops; cases hops
  | cons hab _ ih =>
    intro ops hops
    rcases List.mem_cons.mp hops with rfl | hops
    · exact hab.fresh
    · exact ih ops hops

/-- and a buffer none of the lists names is written by no operation of any stretch, -/
theorem keeps_of {opss : List (List (HloOp τ sig (Elt F)))} {Ws : List (List (Ref sig .tc))}
    (h : List.Forall₂ (Plain (F := F)) opss Ws) {r : Ref sig .tc} (hr : ∀ W ∈ Ws, r ∉ W) :
    ∀ ops ∈ opss, ∀ op ∈ ops, Proc.devRef (τ := τ) .tc r ∉ op.writes := by
  induction h with
  | nil => intro ops hops; cases hops
  | cons hab _ ih =>
    intro ops hops
    rcases List.mem_cons.mp hops with rfl | hops
    · exact hab.keeps (hr _ List.mem_cons_self)
    · exact ih (fun W hW => hr W (List.mem_cons_of_mem _ hW)) ops hops

/-- nor by any operation of the stretches run one after the other. -/
theorem keeps_flat {opss : List (List (HloOp τ sig (Elt F)))} {Ws : List (List (Ref sig .tc))}
    (h : List.Forall₂ (Plain (F := F)) opss Ws) {r : Ref sig .tc} (hr : ∀ W ∈ Ws, r ∉ W) :
    ∀ op ∈ opss.flatten, Proc.devRef (τ := τ) .tc r ∉ op.writes := fun op hop => by
  obtain ⟨ops, hops, hop⟩ := List.mem_flatten.mp hop
  exact keeps_of h hr ops hops op hop

/-! ## What each stretch writes

The result buffers of each stretch's operations, in order. -/

abbrev w0 : List (Ref sig .tc) :=
  [ main_c, main_v0, main_v1, main_c_0, main_v2, main_v3, main_v4, main_v5, main_v6, main_v7, main_cst, main_v8,
    main_v9, main_c_1, main_v10, main_v11, main_c_2, main_v12, main_v13, main_v14, main_v15, main_v16, main_v17,
    main_cst_3, main_v18, main_v19, main_v20, main_v21, main_v22, main_v23, main_v24, main_v25 ]
abbrev w0_1 : List (Ref sig .tc) :=
  [ main_call0_v0, main_call0_cst, main_call0_v1, main_call0_v2, main_v26 ]
abbrev w0_2 : List (Ref sig .tc) :=
  [ main_cst_4, main_v27, main_v28, main_v29, main_v30, main_v31, main_v32, main_v33 ]
abbrev w1 : List (Ref sig .tc) :=
  [ main_v35, main_v36, main_v37, main_v38, main_cst_5, main_v39, main_v40 ]
abbrev w1_1 : List (Ref sig .tc) :=
  [ main_call1_cst, main_call1_v0, main_call1_cst_0, main_call1_v1, main_call1_v2, main_call1_v3, main_call1_v4,
    main_call1_v5, main_call1_v6, main_call1_cst_1, main_call1_v7, main_call1_v8, main_call1_v9, main_call1_v10,
    main_v41 ]
abbrev w1_2 : List (Ref sig .tc) :=
  [ main_cst_6, main_v42, main_v43 ]
abbrev w1_3 : List (Ref sig .tc) :=
  [ main_call2_cst, main_call2_v0, main_call2_cst_0, main_call2_v1, main_call2_v2, main_call2_v3, main_call2_v4,
    main_call2_v5, main_call2_v6, main_call2_cst_1, main_call2_v7, main_call2_v8, main_call2_v9, main_call2_v10,
    main_v44 ]
abbrev w1_4 : List (Ref sig .tc) :=
  [ main_cst_7, main_v45, main_v46 ]
abbrev w1_5 : List (Ref sig .tc) :=
  [ main_call3_cst, main_call3_v0, main_call3_cst_0, main_call3_v1, main_call3_v2, main_call3_v3, main_call3_v4,
    main_call3_v5, main_call3_v6, main_call3_cst_1, main_call3_v7, main_call3_v8, main_call3_v9, main_call3_v10,
    main_v47 ]
abbrev w1_6 : List (Ref sig .tc) :=
  [ main_cst_8, main_v48, main_v49 ]
abbrev w1_7 : List (Ref sig .tc) :=
  [ main_call4_cst, main_call4_v0, main_call4_cst_0, main_call4_v1, main_call4_v2, main_call4_v3, main_call4_v4,
    main_call4_v5, main_call4_v6, main_call4_cst_1, main_call4_v7, main_call4_v8, main_call4_v9, main_call4_v10,
    main_v50 ]
abbrev w1_8 : List (Ref sig .tc) :=
  [ main_cst_9, main_v51, main_v52, main_v53, main_cst_10, main_v54, main_v55, main_v56, main_v57, main_cst_11,
    main_v58, main_v59, main_v60, main_v61, main_cst_12, main_v62, main_v63, main_v64, main_v65, main_cst_13,
    main_v66, main_v67, main_v68, main_v69, main_cst_14, main_v70, main_v71, main_v72, main_v73, main_cst_15,
    main_v74, main_v75, main_v76, main_v77, main_cst_16, main_v78, main_v79, main_v80, main_v81, main_c_17, main_v82,
    main_v83 ]
abbrev w1_9 : List (Ref sig .tc) :=
  [ main_call5_v0, main_call5_v1, main_call5_v2, main_call5_v3, main_call5_v4, main_v84 ]
abbrev w1_10 : List (Ref sig .tc) :=
  [ main_c_18, main_v85, main_v86, main_v87 ]
abbrev w1_11 : List (Ref sig .tc) :=
  [ main_call6_v0, main_v88 ]
abbrev w1_12 : List (Ref sig .tc) :=
  [ main_cst_19, main_v89, main_v90, main_v91, main_cst_20, main_v92, main_v93, main_v94, main_v95, main_cst_21,
    main_v96, main_v97, main_v98, main_v99, main_cst_22, main_v100, main_v101, main_v102, main_v103, main_cst_23,
    main_v104, main_v105, main_v106, main_v107, main_cst_24, main_v108, main_v109, main_v110, main_v111, main_cst_25,
    main_v112, main_v113, main_v114, main_v115, main_cst_26, main_v116, main_v117, main_v118, main_v119, main_c_27,
    main_v120, main_v121 ]
abbrev w1_13 : List (Ref sig .tc) :=
  [ main_call7_v0, main_call7_v1, main_call7_v2, main_call7_v3, main_call7_v4, main_v122 ]
abbrev w1_14 : List (Ref sig .tc) :=
  [ main_c_28, main_v123, main_v124, main_v125 ]
abbrev w1_15 : List (Ref sig .tc) :=
  [ main_call8_v0, main_v126 ]
abbrev w1_16 : List (Ref sig .tc) :=
  [ main_c_29, main_v127, main_v128, main_c_30, main_v129, main_v130, main_v131, main_v132, main_v133, main_v134,
    main_cst_31, main_v135, main_v136, main_c_32, main_v137, main_v138, main_c_33, main_v139, main_v140, main_v141,
    main_v142, main_v143, main_v144, main_cst_34, main_v145, main_v146, main_v147, main_cst_35, main_v148, main_v149,
    main_cst_36, main_v150, main_cst_37, main_v151, main_v152, main_cst_38, main_v153, main_v154, main_cst_39,
    main_v155, main_cst_40, main_v156, main_v157, main_v158, main_cst_41, main_v159, main_v160, main_cst_42,
    main_v161, main_cst_43, main_v162, main_v163, main_cst_44, main_v164, main_v165, main_cst_45, main_v166,
    main_cst_46, main_v167, main_v168, main_v169, main_cst_47, main_v170 ]

/-- The lists of the three stretches before the region, -/
abbrev preW : List (List (Ref sig .tc)) := [w0, w0_1, w0_2]
/-- and of the seventeen after it. -/
abbrev tailW : List (List (Ref sig .tc)) :=
  [w1, w1_1, w1_2, w1_3, w1_4, w1_5, w1_6, w1_7, w1_8, w1_9, w1_10, w1_11, w1_12, w1_13, w1_14, w1_15, w1_16]

/-- One operation after the other: it allocates nothing and its one written buffer is the list's next entry, both by
    unfolding the operation. -/
local macro "plain_stretch" : tactic =>
  `(tactic| repeat' first | exact List.Forall₂.nil | refine List.Forall₂.cons ⟨rfl, rfl⟩ ?_)

theorem hostOps0_plain : Plain (F := F) hostOps0 w0 := by plain_stretch
theorem hostOps0_1_plain : Plain (F := F) hostOps0_1 w0_1 := by plain_stretch
theorem hostOps0_2_plain : Plain (F := F) hostOps0_2 w0_2 := by plain_stretch
theorem hostOps1_plain : Plain (F := F) hostOps1 w1 := by plain_stretch
theorem hostOps1_1_plain : Plain (F := F) hostOps1_1 w1_1 := by plain_stretch
theorem hostOps1_2_plain : Plain (F := F) hostOps1_2 w1_2 := by plain_stretch
theorem hostOps1_3_plain : Plain (F := F) hostOps1_3 w1_3 := by plain_stretch
theorem hostOps1_4_plain : Plain (F := F) hostOps1_4 w1_4 := by plain_stretch
theorem hostOps1_5_plain : Plain (F := F) hostOps1_5 w1_5 := by plain_stretch
theorem hostOps1_6_plain : Plain (F := F) hostOps1_6 w1_6 := by plain_stretch
theorem hostOps1_7_plain : Plain (F := F) hostOps1_7 w1_7 := by plain_stretch
theorem hostOps1_8_plain : Plain (F := F) hostOps1_8 w1_8 := by plain_stretch
theorem hostOps1_9_plain : Plain (F := F) hostOps1_9 w1_9 := by plain_stretch
theorem hostOps1_10_plain : Plain (F := F) hostOps1_10 w1_10 := by plain_stretch
theorem hostOps1_11_plain : Plain (F := F) hostOps1_11 w1_11 := by plain_stretch
theorem hostOps1_12_plain : Plain (F := F) hostOps1_12 w1_12 := by plain_stretch
theorem hostOps1_13_plain : Plain (F := F) hostOps1_13 w1_13 := by plain_stretch
theorem hostOps1_14_plain : Plain (F := F) hostOps1_14 w1_14 := by plain_stretch
theorem hostOps1_15_plain : Plain (F := F) hostOps1_15 w1_15 := by plain_stretch
theorem hostOps1_16_plain : Plain (F := F) hostOps1_16 w1_16 := by plain_stretch

/-- The stretches before the region, -/
theorem pre_plain : List.Forall₂ (Plain (F := F)) preOps preW :=
  .cons hostOps0_plain (.cons hostOps0_1_plain (.cons hostOps0_2_plain .nil))
/-- and after it. -/
theorem tail_plain : List.Forall₂ (Plain (F := F)) tailOps tailW :=
  .cons hostOps1_plain (.cons hostOps1_1_plain (.cons hostOps1_2_plain (.cons hostOps1_3_plain (.cons hostOps1_4_plain (.cons hostOps1_5_plain (.cons hostOps1_6_plain (.cons hostOps1_7_plain (.cons hostOps1_8_plain (.cons hostOps1_9_plain (.cons hostOps1_10_plain (.cons hostOps1_11_plain (.cons hostOps1_12_plain (.cons hostOps1_13_plain (.cons hostOps1_14_plain (.cons hostOps1_15_plain (.cons hostOps1_16_plain (.nil)))))))))))))))))

/-- Every operation before the region touches TensorCore references only, -/
theorem pre_sub : (preOps : List (List (HloOp τ sig (Elt F)))).Forall fun ops => ops.Forall fun op => op.bufs ⊆ StableHlo.tcRefs τ sig :=
  ⟨hostOps0_sub, hostOps0_1_sub, hostOps0_2_sub⟩
/-- and so does every operation after it. -/
theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub⟩

variable (m : (ℓ : Loc nD τ sig) → Buf (Elt F) ℓ) (ρ : Dev nD → PrngReg)

/-! ## @main around the region -/

/-- @main is the three stretches before the region, the region, and the seventeen stretches after it: holding the
    launch memory it reduces to the region continued by the later stretches, holding the buffers as the earlier
    stretches leave them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps pre_sub
    (List.forall_iff_forall_mem.mpr fun ops hops => List.forall_iff_forall_mem.mpr (fresh_of pre_plain ops hops)) main_chain

/-- The stretches after the region touch the windows' arrays and the buffers that bypass the region only: each
    operation's buffers are unscoped TensorCore references, and with nothing prefetched every such reference is one or
    the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_sub ops hops) op hop)
/-- They allocate nothing. -/
theorem sfx_fresh : ∀ ops ∈ (tailOps : List (List (HloOp τ sig (Elt F)))), ∀ op ∈ ops, op.fresh = ∅ :=
  fresh_of tail_plain
/-- And they write none of the four arrays the windows stage: none is among the buffers they write. -/
theorem sfx_keeps : ∀ ops ∈ (tailOps : List (List (HloOp τ sig (Elt F)))), ∀ op ∈ ops,
    ∀ w, Proc.devRef .tc (Pipeline.arrRef spec0 w) ∉ op.writes := fun ops hops op hop w =>
  keeps_of tail_plain ((by decide : ∀ w, ∀ W ∈ tailW, Pipeline.arrRef spec0 w ∉ W) w) ops hops op hop

/-- A buffer no stretch before the region writes is found by the region as launched. -/
theorem V_of_keeps (c : Dev nD) (r : Ref sig .tc) (hr : ∀ W ∈ preW, r ∉ W) : V m c r = m ((c : Thread nD τ).loc r) :=
  StableHlo.after_of_forall_not_mem (b := Proc.devRef .tc r) _ _ (keeps_flat pre_plain hr)

/-- A buffer that is no array of a window and that no stretch writes, before the region or after it, ends as launched. -/
theorem W_of_keeps (c : Dev nD) (r : Ref sig .tc) (hpre : ∀ W ∈ preW, r ∉ W) (htail : ∀ W ∈ tailW, r ∉ W)
    (harr : ∀ w, Pipeline.arrRef spec0 w ≠ r) :
    Pipeline.afterTail₀ cfgs (dats m) 0 (V0 m) tailOps c r = m ((c : Thread nD τ).loc r) := by
  unfold Pipeline.afterTail₀
  rw [StableHlo.after_of_forall_not_mem (b := Proc.devRef .tc r) _ _ (keeps_flat tail_plain htail),
    Pipeline.withArrays_of_ne _ c (V0 m c) _ r harr]
  exact V_of_keeps m c r hpre

/-- No host line writes `main_arg0`: the region finds it as launched, -/
theorem V_main_arg0 (c : Dev nD) : V m c main_arg0 = m ((c : Thread nD τ).loc main_arg0) :=
  V_of_keeps m c main_arg0 (by decide)
/-- and it ends as launched. -/
theorem W_main_arg0 (c : Dev nD) :
    Pipeline.afterTail₀ cfgs (dats m) 0 (V0 m) tailOps c main_arg0 = m ((c : Thread nD τ).loc main_arg0) :=
  W_of_keeps m c main_arg0 (by decide) (by decide) (by decide)
/-- No host line writes `main_arg1`: the region finds it as launched, -/
theorem V_main_arg1 (c : Dev nD) : V m c main_arg1 = m ((c : Thread nD τ).loc main_arg1) :=
  V_of_keeps m c main_arg1 (by decide)
/-- and it ends as launched. -/
theorem W_main_arg1 (c : Dev nD) :
    Pipeline.afterTail₀ cfgs (dats m) 0 (V0 m) tailOps c main_arg1 = m ((c : Thread nD τ).loc main_arg1) :=
  W_of_keeps m c main_arg1 (by decide) (by decide) (by decide)
/-- No host line writes `main_arg2`: the region finds it as launched, -/
theorem V_main_arg2 (c : Dev nD) : V m c main_arg2 = m ((c : Thread nD τ).loc main_arg2) :=
  V_of_keeps m c main_arg2 (by decide)
/-- and it ends as launched. -/
theorem W_main_arg2 (c : Dev nD) :
    Pipeline.afterTail₀ cfgs (dats m) 0 (V0 m) tailOps c main_arg2 = m ((c : Thread nD τ).loc main_arg2) :=
  W_of_keeps m c main_arg2 (by decide) (by decide) (by decide)
/-- No host line writes `main_arg3`: the region finds it as launched, -/
theorem V_main_arg3 (c : Dev nD) : V m c main_arg3 = m ((c : Thread nD τ).loc main_arg3) :=
  V_of_keeps m c main_arg3 (by decide)
/-- and it ends as launched. -/
theorem W_main_arg3 (c : Dev nD) :
    Pipeline.afterTail₀ cfgs (dats m) 0 (V0 m) tailOps c main_arg3 = m ((c : Thread nD τ).loc main_arg3) :=
  W_of_keeps m c main_arg3 (by decide) (by decide) (by decide)
/-- No host line writes `main_arg4`: the region finds it as launched, -/
theorem V_main_arg4 (c : Dev nD) : V m c main_arg4 = m ((c : Thread nD τ).loc main_arg4) :=
  V_of_keeps m c main_arg4 (by decide)
/-- and it ends as launched. -/
theorem W_main_arg4 (c : Dev nD) :
    Pipeline.afterTail₀ cfgs (dats m) 0 (V0 m) tailOps c main_arg4 = m ((c : Thread nD τ).loc main_arg4) :=
  W_of_keeps m c main_arg4 (by decide) (by decide) (by decide)
/-- No host line writes `main_arg5`: the region finds it as launched, -/
theorem V_main_arg5 (c : Dev nD) : V m c main_arg5 = m ((c : Thread nD τ).loc main_arg5) :=
  V_of_keeps m c main_arg5 (by decide)
/-- and it ends as launched. -/
theorem W_main_arg5 (c : Dev nD) :
    Pipeline.afterTail₀ cfgs (dats m) 0 (V0 m) tailOps c main_arg5 = m ((c : Thread nD τ).loc main_arg5) :=
  W_of_keeps m c main_arg5 (by decide) (by decide) (by decide)

/-! ## What the body finds in the inputs' buffers -/

/-- The stacked inputs' buffer holds the window's block at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- The weights' buffer holds the whole weight matrix at every point: fetched at the first, and at a later point the
    block index has not moved since the point before. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- The prototypes' buffer likewise holds the whole transposed prototype matrix at every point. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body's one store -/

/-- The one store is of the whole 1024 x 1000 block, so it covers the output's buffer. -/
theorem cover0_3 (p0 : Vec F S1024x1000 .f32) (y : S1024x1000.Idx) :
    ∃ pc ∈ ([⟨rC, p0⟩] : List (View.Piece (Elt F) S1024x1000 .f32)), y ∈ pc.1.set :=
  View.cover_of_tiled [⟨rC, p0⟩] S1024x1000.size (by rfl) y

set_option maxHeartbeats 1000000 in
/-- The kernel body on whole staging buffers, the inputs' at the contents `x0`, `x1`, `x2` and the output's at
    anything: it loads the four blocks, stores the logits of the three inputs over the output's whole block, and
    continues holding the inputs' buffers as they were and the output's at that one store. -/
theorem sound_kernel (c : Dev nD) (E : Set ℕ) (i : grid0.Coords)
    (arg1 : Memref sig .tc .vmem S1024x2048 .bf16) (harg1 : arg1.IsWhole) (arg2 : Memref sig .tc .vmem S2048x1024 .bf16) (harg2 : arg2.IsWhole)
    (arg3 : Memref sig .tc .vmem S1024x1000 .bf16) (harg3 : arg3.IsWhole) (arg4 : Memref sig .tc .vmem S1024x1000 .f32) (harg4 : arg4.IsWhole)
    (x0 : Vec F S1024x2048 .bf16) (x1 : Vec F S2048x1024 .bf16) (x2 : Vec F S1024x1000 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fused_backbone_logits_kernel i arg1 harg1 arg2 harg2 arg3 harg3 arg4 harg4) K := by
  simp only [cc0__fused_backbone_logits_kernel_eq_skeleton]; unfold cc0__fused_backbone_logits_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the region's invariant, what the core owes, and each window's current
    staging buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, the output's holds something, so the body's triple
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's proof data, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in the type of an argument still to be found
set_option backward.isDefEq.respectTransparency.types false in
/-- From any memory with zero counters, every weakly fair execution of @main on the TensorCores terminates without a
    fault, and every final state has each array of the region at what the proof data computes for it and every other
    unscoped buffer as the stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every weakly fair execution terminates without a fault, and the six argument arrays end as launched.
    No window stages an argument array, so the run's post gives each at what the later stretches leave, which is what
    was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c)⟩) (run_main m ρ)

end Cert.Kernel.Around

end
-- ==== Proof.KernelIdealAround.lean ====
/-
  The program around its one kernel region: the host lines before the region, the region's windows, and the host
  lines after it, named so that the frame run and the value of the result can be stated over them.

  The kernel multiplies a block of 1024 rows of the stacked inputs by the backbone weights, divides each row by its
  Euclidean norm (bounded below by a small constant), and multiplies by the transposed prototypes.  Its body loads the
  three input blocks whole and stores the 1024 x 1000 block of logits whole; so after the body the output's buffer is
  that one store over the three loaded blocks, and the inputs' buffers are as loaded.
-/
import proofs.«127123_j21672404975748_1_alg».proof.Proof.Gen.KernelIdeal.Launch
import proofs.«127123_j21672404975748_1_alg».proof.Proof.Gen.KernelIdeal.Skeleton
import proofs.«127123_j21672404975748_1_alg».proof.Proof.Gen.KernelIdeal.Points
import Idealize.ShloMosaic.Lib.Pipeline.FrameBody
import Idealize.ShloMosaic.Lib.Pipeline.FrameSuffix

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (m : (ℓ : Loc nD τ sig) → Buf (Elt F) ℓ)

/-- The host lines before the region, stretch by stretch: the batch mixing and the stacked bf16 inputs, the
    prototypes' row norms, and the normalised, sliced and transposed prototypes. -/
abbrev preOps : List (List (HloOp τ sig (Elt F))) := [hostOps0, hostOps0_1, hostOps0_2]

/-- The host lines after the region, stretch by stretch: the four slices of the logits, the four log-softmaxes, the two
    Sinkhorn normalisations with their one-hot overrides, and the cross-entropy reduction. -/
abbrev tailOps : List (List (HloOp τ sig (Elt F))) :=
  [hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15, hostOps1_16]

/-- A core's buffer contents when the region is entered: the lines before it applied to the launch memory. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 1024 x 2048 block of stacked input rows, -/
abbrev rX : Rect S1024x2048 := Rect.unit (s := S1024x2048) ![0, 0] S1024x2048.size inb_S1024x2048_S1024x2048_0_0
/-- the whole 2048 x 1024 weight matrix, -/
abbrev rW : Rect S2048x1024 := Rect.unit (s := S2048x1024) ![0, 0] S2048x1024.size inb_S2048x1024_S2048x1024_0_0
/-- and the whole 1024 x 1000 block (the transposed prototypes on the way in, the logits on the way out). -/
abbrev rC : Rect S1024x1000 := Rect.unit (s := S1024x1000) ![0, 0] S1024x1000.size inb_S1024x1000_S1024x1000_0_0

/-- What the body leaves in the output window's buffer: its one whole-block store of the logits computed from the
    three loaded blocks. -/
def out0_3 (x0 : Vec F S1024x2048 .bf16) (x1 : Vec F S2048x1024 .bf16) (x2 : Vec F S1024x1000 .bf16) : Vec F S1024x1000 .f32 :=
  View.canon [⟨rC, k0_pay1 (View.ld x0 rX) (View.ld x1 rW) (View.ld x2 rC)⟩]

/-- The region's proof data on core `c`: the arrays as the region finds them; after the body at point `t` each input's
    buffer at its block and the output's at the logits of the three input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.KernelIdeal.Around

end
-- ==== Proof.KernelIdealFrame.lean ====
/-
  The frame of the program around its one kernel region.

  The program is three stretches of host lines, the region, and seventeen more stretches of host lines.  Every host
  line allocates nothing and writes exactly one buffer, its own result; listing those results stretch by stretch, a
  buffer that is in none of the lists is never written.  The six argument arrays are in no list at all, and the four
  arrays the region's windows stage are in no list of the stretches after the region.  So the region finds the
  arguments as launched, the later lines leave the windows' arrays alone, and the arguments end as launched.

  The kernel body loads its three input blocks and the output block whole and stores the output block whole, once.
  Whatever the output's buffer held, after the body it holds that one store over the three loaded blocks; the inputs'
  buffers are as loaded.  An input window that is not fetched at a point has not moved its block index since the point
  before, so its buffer holds its block at every point, fetched there or not.
-/
import proofs.«127123_j21672404975748_1_alg».proof.Proof.KernelIdealAround
import Idealize.ShloMosaic.Lib.Pipeline.FrameBody
import Idealize.ShloMosaic.Lib.Pipeline.FrameSuffix
import Idealize.ShloMosaic.Lib.Ring
import Idealize.ShloMosaic.Lib.Tactic

-- membership in a whole-block rectangle of extents 1024 x 1000 is looked at once per coordinate of the long axes
set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Host lines that write one buffer each -/

/-- Every operation of the stretch `ops` allocates nothing and writes exactly one buffer: the one the list `W` names
    at the operation's place. -/
abbrev Plain (ops : List (HloOp τ sig (Elt F))) (W : List (Ref sig .tc)) : Prop :=
  List.Forall₂ (fun op y => op.fresh = ∅ ∧ op.writes = {Proc.devRef (τ := τ) .tc y}) ops W

/-- Such a stretch allocates nothing. -/
theorem Plain.fresh {ops : List (HloOp τ sig (Elt F))} {W : List (Ref sig .tc)} (h : Plain ops W) :
    ∀ op ∈ ops, op.fresh = ∅ := by
  induction h with
  | nil => intro op hop; cases hop
  | cons hab _ ih =>
    intro op hop
    rcases List.mem_cons.mp hop with rfl | hop
    · exact hab.1
    · exact ih op hop

/-- A buffer the list does not name is written by no operation of the stretch. -/
theorem Plain.keeps {ops : List (HloOp τ sig (Elt F))} {W : List (Ref sig .tc)} (h : Plain ops W)
    {r : Ref sig .tc} (hr : r ∉ W) : ∀ op ∈ ops, Proc.devRef (τ := τ) .tc r ∉ op.writes := by
  induction h with
  | nil => intro op hop; cases hop
  | cons hab _ ih =>
    intro op hop
    rcases List.mem_cons.mp hop with rfl | hop
    · rw [hab.2, Finset.mem_singleton]
      exact StableHlo.devRef_ne_of_ne fun e => hr (e ▸ List.mem_cons_self)
    · exact ih (fun h' => hr (List.mem_cons_of_mem _ h')) op hop

/-- Stretch by stretch: nothing is allocated, -/
theorem fresh_of {opss : List (List (HloOp τ sig (Elt F)))} {Ws : List (List (Ref sig .tc))}
    (h : List.Forall₂ (Plain (F := F)) opss Ws) : ∀ ops ∈ opss, ∀ op ∈ ops, op.fresh = ∅ := by
  induction h with
  | nil => intro ops hops; cases hops
  | cons hab _ ih =>
    intro ops hops
    rcases List.mem_cons.mp hops with rfl | hops
    · exact hab.fresh
    · exact ih ops hops

/-- and a buffer none of the lists names is written by no operation of any stretch, -/
theorem keeps_of {opss : List (List (HloOp τ sig (Elt F)))} {Ws : List (List (Ref sig .tc))}
    (h : List.Forall₂ (Plain (F := F)) opss Ws) {r : Ref sig .tc} (hr : ∀ W ∈ Ws, r ∉ W) :
    ∀ ops ∈ opss, ∀ op ∈ ops, Proc.devRef (τ := τ) .tc r ∉ op.writes := by
  induction h with
  | nil => intro ops hops; cases hops
  | cons hab _ ih =>
    intro ops hops
    rcases List.mem_cons.mp hops with rfl | hops
    · exact hab.keeps (hr _ List.mem_cons_self)
    · exact ih (fun W hW => hr W (List.mem_cons_of_mem _ hW)) ops hops

/-- nor by any operation of the stretches run one after the other. -/
theorem keeps_flat {opss : List (List (HloOp τ sig (Elt F)))} {Ws : List (List (Ref sig .tc))}
    (h : List.Forall₂ (Plain (F := F)) opss Ws) {r : Ref sig .tc} (hr : ∀ W ∈ Ws, r ∉ W) :
    ∀ op ∈ opss.flatten, Proc.devRef (τ := τ) .tc r ∉ op.writes := fun op hop => by
  obtain ⟨ops, hops, hop⟩ := List.mem_flatten.mp hop
  exact keeps_of h hr ops hops op hop

/-! ## What each stretch writes

The result buffers of each stretch's operations, in order. -/

abbrev w0 : List (Ref sig .tc) :=
  [ main_c, main_v0, main_v1, main_c_0, main_v2, main_v3, main_v4, main_v5, main_v6, main_v7, main_cst, main_v8,
    main_v9, main_c_1, main_v10, main_v11, main_c_2, main_v12, main_v13, main_v14, main_v15, main_v16, main_v17,
    main_cst_3, main_v18, main_v19, main_v20, main_v21, main_v22, main_v23, main_v24, main_v25 ]
abbrev w0_1 : List (Ref sig .tc) :=
  [ main_call0_v0, main_call0_cst, main_call0_v1, main_call0_v2, main_v26 ]
abbrev w0_2 : List (Ref sig .tc) :=
  [ main_cst_4, main_v27, main_v28, main_v29, main_v30, main_v31, main_v32, main_v33 ]
abbrev w1 : List (Ref sig .tc) :=
  [ main_v35, main_v36, main_v37, main_v38, main_cst_5, main_v39, main_v40 ]
abbrev w1_1 : List (Ref sig .tc) :=
  [ main_call1_cst, main_call1_v0, main_call1_cst_0, main_call1_v1, main_call1_v2, main_call1_v3, main_call1_v4,
    main_call1_v5, main_call1_v6, main_call1_cst_1, main_call1_v7, main_call1_v8, main_call1_v9, main_call1_v10,
    main_v41 ]
abbrev w1_2 : List (Ref sig .tc) :=
  [ main_cst_6, main_v42, main_v43 ]
abbrev w1_3 : List (Ref sig .tc) :=
  [ main_call2_cst, main_call2_v0, main_call2_cst_0, main_call2_v1, main_call2_v2, main_call2_v3, main_call2_v4,
    main_call2_v5, main_call2_v6, main_call2_cst_1, main_call2_v7, main_call2_v8, main_call2_v9, main_call2_v10,
    main_v44 ]
abbrev w1_4 : List (Ref sig .tc) :=
  [ main_cst_7, main_v45, main_v46 ]
abbrev w1_5 : List (Ref sig .tc) :=
  [ main_call3_cst, main_call3_v0, main_call3_cst_0, main_call3_v1, main_call3_v2, main_call3_v3, main_call3_v4,
    main_call3_v5, main_call3_v6, main_call3_cst_1, main_call3_v7, main_call3_v8, main_call3_v9, main_call3_v10,
    main_v47 ]
abbrev w1_6 : List (Ref sig .tc) :=
  [ main_cst_8, main_v48, main_v49 ]
abbrev w1_7 : List (Ref sig .tc) :=
  [ main_call4_cst, main_call4_v0, main_call4_cst_0, main_call4_v1, main_call4_v2, main_call4_v3, main_call4_v4,
    main_call4_v5, main_call4_v6, main_call4_cst_1, main_call4_v7, main_call4_v8, main_call4_v9, main_call4_v10,
    main_v50 ]
abbrev w1_8 : List (Ref sig .tc) :=
  [ main_cst_9, main_v51, main_v52, main_v53, main_cst_10, main_v54, main_v55, main_v56, main_v57, main_cst_11,
    main_v58, main_v59, main_v60, main_v61, main_cst_12, main_v62, main_v63, main_v64, main_v65, main_cst_13,
    main_v66, main_v67, main_v68, main_v69, main_cst_14, main_v70, main_v71, main_v72, main_v73, main_cst_15,
    main_v74, main_v75, main_v76, main_v77, main_cst_16, main_v78, main_v79, main_v80, main_v81, main_c_17, main_v82,
    main_v83 ]
abbrev w1_9 : List (Ref sig .tc) :=
  [ main_call5_v0, main_call5_v1, main_call5_v2, main_call5_v3, main_call5_v4, main_v84 ]
abbrev w1_10 : List (Ref sig .tc) :=
  [ main_c_18, main_v85, main_v86, main_v87 ]
abbrev w1_11 : List (Ref sig .tc) :=
  [ main_call6_v0, main_v88 ]
abbrev w1_12 : List (Ref sig .tc) :=
  [ main_cst_19, main_v89, main_v90, main_v91, main_cst_20, main_v92, main_v93, main_v94, main_v95, main_cst_21,
    main_v96, main_v97, main_v98, main_v99, main_cst_22, main_v100, main_v101, main_v102, main_v103, main_cst_23,
    main_v104, main_v105, main_v106, main_v107, main_cst_24, main_v108, main_v109, main_v110, main_v111, main_cst_25,
    main_v112, main_v113, main_v114, main_v115, main_cst_26, main_v116, main_v117, main_v118, main_v119, main_c_27,
    main_v120, main_v121 ]
abbrev w1_13 : List (Ref sig .tc) :=
  [ main_call7_v0, main_call7_v1, main_call7_v2, main_call7_v3, main_call7_v4, main_v122 ]
abbrev w1_14 : List (Ref sig .tc) :=
  [ main_c_28, main_v123, main_v124, main_v125 ]
abbrev w1_15 : List (Ref sig .tc) :=
  [ main_call8_v0, main_v126 ]
abbrev w1_16 : List (Ref sig .tc) :=
  [ main_c_29, main_v127, main_v128, main_c_30, main_v129, main_v130, main_v131, main_v132, main_v133, main_v134,
    main_cst_31, main_v135, main_v136, main_c_32, main_v137, main_v138, main_c_33, main_v139, main_v140, main_v141,
    main_v142, main_v143, main_v144, main_cst_34, main_v145, main_v146, main_v147, main_cst_35, main_v148, main_v149,
    main_cst_36, main_v150, main_cst_37, main_v151, main_v152, main_cst_38, main_v153, main_v154, main_cst_39,
    main_v155, main_cst_40, main_v156, main_v157, main_v158, main_cst_41, main_v159, main_v160, main_cst_42,
    main_v161, main_cst_43, main_v162, main_v163, main_cst_44, main_v164, main_v165, main_cst_45, main_v166,
    main_cst_46, main_v167, main_v168, main_v169, main_cst_47, main_v170 ]

/-- The lists of the three stretches before the region, -/
abbrev preW : List (List (Ref sig .tc)) := [w0, w0_1, w0_2]
/-- and of the seventeen after it. -/
abbrev tailW : List (List (Ref sig .tc)) :=
  [w1, w1_1, w1_2, w1_3, w1_4, w1_5, w1_6, w1_7, w1_8, w1_9, w1_10, w1_11, w1_12, w1_13, w1_14, w1_15, w1_16]

/-- One operation after the other: it allocates nothing and its one written buffer is the list's next entry, both by
    unfolding the operation. -/
local macro "plain_stretch" : tactic =>
  `(tactic| repeat' first | exact List.Forall₂.nil | refine List.Forall₂.cons ⟨rfl, rfl⟩ ?_)

theorem hostOps0_plain : Plain (F := F) hostOps0 w0 := by plain_stretch
theorem hostOps0_1_plain : Plain (F := F) hostOps0_1 w0_1 := by plain_stretch
theorem hostOps0_2_plain : Plain (F := F) hostOps0_2 w0_2 := by plain_stretch
theorem hostOps1_plain : Plain (F := F) hostOps1 w1 := by plain_stretch
theorem hostOps1_1_plain : Plain (F := F) hostOps1_1 w1_1 := by plain_stretch
theorem hostOps1_2_plain : Plain (F := F) hostOps1_2 w1_2 := by plain_stretch
theorem hostOps1_3_plain : Plain (F := F) hostOps1_3 w1_3 := by plain_stretch
theorem hostOps1_4_plain : Plain (F := F) hostOps1_4 w1_4 := by plain_stretch
theorem hostOps1_5_plain : Plain (F := F) hostOps1_5 w1_5 := by plain_stretch
theorem hostOps1_6_plain : Plain (F := F) hostOps1_6 w1_6 := by plain_stretch
theorem hostOps1_7_plain : Plain (F := F) hostOps1_7 w1_7 := by plain_stretch
theorem hostOps1_8_plain : Plain (F := F) hostOps1_8 w1_8 := by plain_stretch
theorem hostOps1_9_plain : Plain (F := F) hostOps1_9 w1_9 := by plain_stretch
theorem hostOps1_10_plain : Plain (F := F) hostOps1_10 w1_10 := by plain_stretch
theorem hostOps1_11_plain : Plain (F := F) hostOps1_11 w1_11 := by plain_stretch
theorem hostOps1_12_plain : Plain (F := F) hostOps1_12 w1_12 := by plain_stretch
theorem hostOps1_13_plain : Plain (F := F) hostOps1_13 w1_13 := by plain_stretch
theorem hostOps1_14_plain : Plain (F := F) hostOps1_14 w1_14 := by plain_stretch
theorem hostOps1_15_plain : Plain (F := F) hostOps1_15 w1_15 := by plain_stretch
theorem hostOps1_16_plain : Plain (F := F) hostOps1_16 w1_16 := by plain_stretch

/-- The stretches before the region, -/
theorem pre_plain : List.Forall₂ (Plain (F := F)) preOps preW :=
  .cons hostOps0_plain (.cons hostOps0_1_plain (.cons hostOps0_2_plain .nil))
/-- and after it. -/
theorem tail_plain : List.Forall₂ (Plain (F := F)) tailOps tailW :=
  .cons hostOps1_plain (.cons hostOps1_1_plain (.cons hostOps1_2_plain (.cons hostOps1_3_plain (.cons hostOps1_4_plain (.cons hostOps1_5_plain (.cons hostOps1_6_plain (.cons hostOps1_7_plain (.cons hostOps1_8_plain (.cons hostOps1_9_plain (.cons hostOps1_10_plain (.cons hostOps1_11_plain (.cons hostOps1_12_plain (.cons hostOps1_13_plain (.cons hostOps1_14_plain (.cons hostOps1_15_plain (.cons hostOps1_16_plain (.nil)))))))))))))))))

/-- Every operation before the region touches TensorCore references only, -/
theorem pre_sub : (preOps : List (List (HloOp τ sig (Elt F)))).Forall fun ops => ops.Forall fun op => op.bufs ⊆ StableHlo.tcRefs τ sig :=
  ⟨hostOps0_sub, hostOps0_1_sub, hostOps0_2_sub⟩
/-- and so does every operation after it. -/
theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub⟩

variable (m : (ℓ : Loc nD τ sig) → Buf (Elt F) ℓ) (ρ : Dev nD → PrngReg)

/-! ## @main around the region -/

/-- @main is the three stretches before the region, the region, and the seventeen stretches after it: holding the
    launch memory it reduces to the region continued by the later stretches, holding the buffers as the earlier
    stretches leave them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps pre_sub
    (List.forall_iff_forall_mem.mpr fun ops hops => List.forall_iff_forall_mem.mpr (fresh_of pre_plain ops hops)) main_chain

/-- The stretches after the region touch the windows' arrays and the buffers that bypass the region only: each
    operation's buffers are unscoped TensorCore references, and with nothing prefetched every such reference is one or
    the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_sub ops hops) op hop)
/-- They allocate nothing. -/
theorem sfx_fresh : ∀ ops ∈ (tailOps : List (List (HloOp τ sig (Elt F)))), ∀ op ∈ ops, op.fresh = ∅ :=
  fresh_of tail_plain
/-- And they write none of the four arrays the windows stage: none is among the buffers they write. -/
theorem sfx_keeps : ∀ ops ∈ (tailOps : List (List (HloOp τ sig (Elt F)))), ∀ op ∈ ops,
    ∀ w, Proc.devRef .tc (Pipeline.arrRef spec0 w) ∉ op.writes := fun ops hops op hop w =>
  keeps_of tail_plain ((by decide : ∀ w, ∀ W ∈ tailW, Pipeline.arrRef spec0 w ∉ W) w) ops hops op hop

/-- A buffer no stretch before the region writes is found by the region as launched. -/
theorem V_of_keeps (c : Dev nD) (r : Ref sig .tc) (hr : ∀ W ∈ preW, r ∉ W) : V m c r = m ((c : Thread nD τ).loc r) :=
  StableHlo.after_of_forall_not_mem (b := Proc.devRef .tc r) _ _ (keeps_flat pre_plain hr)

/-- A buffer that is no array of a window and that no stretch writes, before the region or after it, ends as launched. -/
theorem W_of_keeps (c : Dev nD) (r : Ref sig .tc) (hpre : ∀ W ∈ preW, r ∉ W) (htail : ∀ W ∈ tailW, r ∉ W)
    (harr : ∀ w, Pipeline.arrRef spec0 w ≠ r) :
    Pipeline.afterTail₀ cfgs (dats m) 0 (V0 m) tailOps c r = m ((c : Thread nD τ).loc r) := by
  unfold Pipeline.afterTail₀
  rw [StableHlo.after_of_forall_not_mem (b := Proc.devRef .tc r) _ _ (keeps_flat tail_plain htail),
    Pipeline.withArrays_of_ne _ c (V0 m c) _ r harr]
  exact V_of_keeps m c r hpre

/-- No host line writes `main_arg0`: the region finds it as launched, -/
theorem V_main_arg0 (c : Dev nD) : V m c main_arg0 = m ((c : Thread nD τ).loc main_arg0) :=
  V_of_keeps m c main_arg0 (by decide)
/-- and it ends as launched. -/
theorem W_main_arg0 (c : Dev nD) :
    Pipeline.afterTail₀ cfgs (dats m) 0 (V0 m) tailOps c main_arg0 = m ((c : Thread nD τ).loc main_arg0) :=
  W_of_keeps m c main_arg0 (by decide) (by decide) (by decide)
/-- No host line writes `main_arg1`: the region finds it as launched, -/
theorem V_main_arg1 (c : Dev nD) : V m c main_arg1 = m ((c : Thread nD τ).loc main_arg1) :=
  V_of_keeps m c main_arg1 (by decide)
/-- and it ends as launched. -/
theorem W_main_arg1 (c : Dev nD) :
    Pipeline.afterTail₀ cfgs (dats m) 0 (V0 m) tailOps c main_arg1 = m ((c : Thread nD τ).loc main_arg1) :=
  W_of_keeps m c main_arg1 (by decide) (by decide) (by decide)
/-- No host line writes `main_arg2`: the region finds it as launched, -/
theorem V_main_arg2 (c : Dev nD) : V m c main_arg2 = m ((c : Thread nD τ).loc main_arg2) :=
  V_of_keeps m c main_arg2 (by decide)
/-- and it ends as launched. -/
theorem W_main_arg2 (c : Dev nD) :
    Pipeline.afterTail₀ cfgs (dats m) 0 (V0 m) tailOps c main_arg2 = m ((c : Thread nD τ).loc main_arg2) :=
  W_of_keeps m c main_arg2 (by decide) (by decide) (by decide)
/-- No host line writes `main_arg3`: the region finds it as launched, -/
theorem V_main_arg3 (c : Dev nD) : V m c main_arg3 = m ((c : Thread nD τ).loc main_arg3) :=
  V_of_keeps m c main_arg3 (by decide)
/-- and it ends as launched. -/
theorem W_main_arg3 (c : Dev nD) :
    Pipeline.afterTail₀ cfgs (dats m) 0 (V0 m) tailOps c main_arg3 = m ((c : Thread nD τ).loc main_arg3) :=
  W_of_keeps m c main_arg3 (by decide) (by decide) (by decide)
/-- No host line writes `main_arg4`: the region finds it as launched, -/
theorem V_main_arg4 (c : Dev nD) : V m c main_arg4 = m ((c : Thread nD τ).loc main_arg4) :=
  V_of_keeps m c main_arg4 (by decide)
/-- and it ends as launched. -/
theorem W_main_arg4 (c : Dev nD) :
    Pipeline.afterTail₀ cfgs (dats m) 0 (V0 m) tailOps c main_arg4 = m ((c : Thread nD τ).loc main_arg4) :=
  W_of_keeps m c main_arg4 (by decide) (by decide) (by decide)
/-- No host line writes `main_arg5`: the region finds it as launched, -/
theorem V_main_arg5 (c : Dev nD) : V m c main_arg5 = m ((c : Thread nD τ).loc main_arg5) :=
  V_of_keeps m c main_arg5 (by decide)
/-- and it ends as launched. -/
theorem W_main_arg5 (c : Dev nD) :
    Pipeline.afterTail₀ cfgs (dats m) 0 (V0 m) tailOps c main_arg5 = m ((c : Thread nD τ).loc main_arg5) :=
  W_of_keeps m c main_arg5 (by decide) (by decide) (by decide)

/-! ## What the body finds in the inputs' buffers -/

/-- The stacked inputs' buffer holds the window's block at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- The weights' buffer holds the whole weight matrix at every point: fetched at the first, and at a later point the
    block index has not moved since the point before. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- The prototypes' buffer likewise holds the whole transposed prototype matrix at every point. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body's one store -/

/-- The one store is of the whole 1024 x 1000 block, so it covers the output's buffer. -/
theorem cover0_3 (p0 : Vec F S1024x1000 .f32) (y : S1024x1000.Idx) :
    ∃ pc ∈ ([⟨rC, p0⟩] : List (View.Piece (Elt F) S1024x1000 .f32)), y ∈ pc.1.set :=
  View.cover_of_tiled [⟨rC, p0⟩] S1024x1000.size (by rfl) y

set_option maxHeartbeats 1000000 in
/-- The kernel body on whole staging buffers, the inputs' at the contents `x0`, `x1`, `x2` and the output's at
    anything: it loads the four blocks, stores the logits of the three inputs over the output's whole block, and
    continues holding the inputs' buffers as they were and the output's at that one store. -/
theorem sound_kernel (c : Dev nD) (E : Set ℕ) (i : grid0.Coords)
    (arg1 : Memref sig .tc .vmem S1024x2048 .bf16) (harg1 : arg1.IsWhole) (arg2 : Memref sig .tc .vmem S2048x1024 .bf16) (harg2 : arg2.IsWhole)
    (arg3 : Memref sig .tc .vmem S1024x1000 .bf16) (harg3 : arg3.IsWhole) (arg4 : Memref sig .tc .vmem S1024x1000 .f32) (harg4 : arg4.IsWhole)
    (x0 : Vec F S1024x2048 .bf16) (x1 : Vec F S2048x1024 .bf16) (x2 : Vec F S1024x1000 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fused_backbone_logits_kernel i arg1 harg1 arg2 harg2 arg3 harg3 arg4 harg4) K := by
  simp only [cc0__fused_backbone_logits_kernel_eq_skeleton]; unfold cc0__fused_backbone_logits_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the region's invariant, what the core owes, and each window's current
    staging buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, the output's holds something, so the body's triple
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's proof data, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in the type of an argument still to be found
set_option backward.isDefEq.respectTransparency.types false in
/-- From any memory with zero counters, every weakly fair execution of @main on the TensorCores terminates without a
    fault, and every final state has each array of the region at what the proof data computes for it and every other
    unscoped buffer as the stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every weakly fair execution terminates without a fault, and the six argument arrays end as launched.
    No window stages an argument array, so the run's post gives each at what the later stretches leave, which is what
    was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c)⟩) (run_main m ρ)

end Cert.KernelIdeal.Around

end
-- ==== Proof.KernelIdealTailFn.lean ====
/-
  The host lines after the region, as one function of what they read.

  After the region the program cuts the 16384 x 1000 array of logits into its four quarters of 4096 rows, and from then on
  reads only those four quarters and two integer arrays of the arguments (the targets and the batch permutation): it
  divides the logits by the temperatures, takes the four log-softmaxes, normalises two of the quarters by alternating
  row and column sums with the targets' one-hot rows overriding, mixes the two soft targets along the permutation,
  and averages the four cross entropies into one scalar.

  Whatever the buffers hold when these lines start, the scalar they end with is therefore ONE function of six values:
  the four quarters and the two integer arrays.  That function is named here, once, together with the fact that the
  lines compute it; nothing else in the proof opens the lines again.
-/
import proofs.«127123_j21672404975748_1_alg».proof.Proof.KernelIdealAround
import Idealize.ShloMosaic.Lib.StableHlo.Run
import Idealize.ShloMosaic.PureOps.Ideal

-- an error message that prints the lines' composed term stops early
set_option pp.maxSteps 3000
set_option pp.deepTerms false

noncomputable section

namespace Cert.KernelIdeal.Around

open Cert.KernelIdeal Cert.KernelIdeal.Gen
open Idealize.ShloMosaic Idealize.ShloMosaic.TcCoe Idealize.SL.Sem Idealize.ShloMosaic.StableHlo

/-- A quarter of the logits: 4096 rows of 1000 entries, -/
abbrev Quarter : Type := (⟨S4096x1000, .f32⟩ : BufTy).Contents (Elt Ideal)
/-- an array of 4096 integers (the targets; the batch permutation), -/
abbrev IdxVec : Type := (⟨S4096, .i32⟩ : BufTy).Contents (Elt Ideal)
/-- and the scalar the program returns. -/
abbrev Loss : Type := (⟨S_, .f32⟩ : BufTy).Contents (Elt Ideal)

set_option maxRecDepth 16384 in
set_option maxHeartbeats 0 in
/-- The function the lines after the region compute, with the fact that they compute it: from ANY buffer contents `B`,
    the result buffer after the lines holds the function's value at the four quarters of the logits array in `B` and
    the two integer arguments in `B`.  The function is read off the lines themselves: each operation's result is its
    function of its operands' results, back to the first reads, which are the four slices and the two arguments. -/
def tailPack : { T : Quarter → Quarter → Quarter → Quarter → IdxVec → IdxVec → Loss //
    ∀ B : Valuation τ sig (Elt Ideal),
      (StableHlo.after (List.flatten (tailOps (F := Ideal))) B (Proc.devRef .tc main_v170) : Loss)
        = T (extractStridedSlice S4096x1000 ![0, 0] (B (Proc.devRef .tc main_v34) : FVec Ideal S16384x1000 .f32) slices_S16384x1000_S4096x1000_0_0)
            (extractStridedSlice S4096x1000 ![4096, 0] (B (Proc.devRef .tc main_v34) : FVec Ideal S16384x1000 .f32) slices_S16384x1000_S4096x1000_4096_0)
            (extractStridedSlice S4096x1000 ![8192, 0] (B (Proc.devRef .tc main_v34) : FVec Ideal S16384x1000 .f32) slices_S16384x1000_S4096x1000_8192_0)
            (extractStridedSlice S4096x1000 ![12288, 0] (B (Proc.devRef .tc main_v34) : FVec Ideal S16384x1000 .f32) slices_S16384x1000_S4096x1000_12288_0)
            (B (Proc.devRef .tc main_arg2)) (B (Proc.devRef .tc main_arg3)) } := by
  apply Subtype.mk
  intro B
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.append_nil, List.cons_append, List.nil_append]
  after_results_simp
  -- the six values the composed term reads
  generalize B (Proc.devRef .tc main_v34) = A
  generalize B (Proc.devRef .tc main_arg2) = x2
  generalize B (Proc.devRef .tc main_arg3) = x3
  generalize extractStridedSlice S4096x1000 ![0, 0] A slices_S16384x1000_S4096x1000_0_0 = Q0
  generalize extractStridedSlice S4096x1000 ![4096, 0] A slices_S16384x1000_S4096x1000_4096_0 = Q1
  generalize extractStridedSlice S4096x1000 ![8192, 0] A slices_S16384x1000_S4096x1000_8192_0 = Q2
  generalize extractStridedSlice S4096x1000 ![12288, 0] A slices_S16384x1000_S4096x1000_12288_0 = Q3
  -- nothing else is read
  clear A B
  exact rfl

/-- The lines after the region as a function of the four quarters of the logits, the targets and the permutation. -/
def tailT : Quarter → Quarter → Quarter → Quarter → IdxVec → IdxVec → Loss := tailPack.1

/-- The lines after the region compute it, from any buffer contents. -/
theorem tail_term (B : Valuation τ sig (Elt Ideal)) :
    (StableHlo.after (List.flatten (tailOps (F := Ideal))) B (Proc.devRef .tc main_v170) : Loss)
      = tailT (extractStridedSlice S4096x1000 ![0, 0] (B (Proc.devRef .tc main_v34) : FVec Ideal S16384x1000 .f32) slices_S16384x1000_S4096x1000_0_0)
          (extractStridedSlice S4096x1000 ![4096, 0] (B (Proc.devRef .tc main_v34) : FVec Ideal S16384x1000 .f32) slices_S16384x1000_S4096x1000_4096_0)
          (extractStridedSlice S4096x1000 ![8192, 0] (B (Proc.devRef .tc main_v34) : FVec Ideal S16384x1000 .f32) slices_S16384x1000_S4096x1000_8192_0)
          (extractStridedSlice S4096x1000 ![12288, 0] (B (Proc.devRef .tc main_v34) : FVec Ideal S16384x1000 .f32) slices_S16384x1000_S4096x1000_12288_0)
          (B (Proc.devRef .tc main_arg2)) (B (Proc.devRef .tc main_arg3)) :=
  tailPack.2 B

end Cert.KernelIdeal.Around

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibLayerHost.lean ====
/-
  The host's spelling of a layer's small operands, read at an index.

  A per-node count `[a]` reaches the `[a, b]` array it divides through two broadcasts: to a column `[a, 1]`, then across
  the columns; entry `(p, k)` of the result is the count of node `p`.  A bias `[b]` reaches the `[a, b]` array it is added to
  through a row `[1, b]`, then down the rows; entry `(p, q)` of the result is the bias at `q`.
  Also the layer with its mean written as a quotient, as an array.
-/
import proofs.«127123_j21672404975748_1_alg».proof.Proof.LibLayerLaws
import Idealize.ShloMosaic.Lib.Pipeline.Value

noncomputable section

open scoped BigOperators

namespace Cert.LayerLaws

open Idealize.ShloMosaic Idealize.ShloMosaic.ValueIdx

variable {α : Type} {a b : ℕ}

/-- A vector `[a]` broadcast to a column `[a, 1]` reads, at `(p, u)`, entry `p`. -/
theorem bcast_col_apply (c : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h c (ix2 p u) = c (ix1 p) := by
  refine broadcastInDim_apply ![0] h c (ix2 p u) (ix1 p) fun ax => ?_
  match ax with
  | ⟨0, _⟩ =>
    show p.val = if a = 1 then 0 else p.val
    split
    · have := p.isLt; omega
    · rfl

/-- A column `[a, 1]` broadcast across `[a, b]` reads, at `(p, k)`, the column's entry of row `p`. -/
theorem bcast_cols_apply (v : (⟨2, ![a, 1]⟩ : Shape).Idx → α)
    (h : (⟨2, ![a, 1]⟩ : Shape).BroadcastsInDim ⟨2, ![a, b]⟩ (![0, 1] : Fin 2 → Fin 2)) (p : Fin a) (k : Fin b) :
    broadcastInDim ⟨2, ![a, b]⟩ ![0, 1] h v (ix2 p k) = v (ix2 p (0 : Fin 1)) := by
  refine broadcastInDim_apply ![0, 1] h v (ix2 p k) (ix2 p (0 : Fin 1)) fun ax => ?_
  match ax with
  | ⟨0, _⟩ =>
    show p.val = if a = 1 then 0 else p.val
    split
    · have := p.isLt; omega
    · rfl
  | ⟨1, _⟩ => rfl

/-- A vector `[b]` broadcast to a row `[1, b]` reads, at `(u, q)`, entry `q`. -/
theorem bcast_row_apply (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- A row `[1, b]` broadcast down `[a, b]` reads, at `(p, q)`, the row's entry of column `q`. -/
theorem bcast_rows_apply (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

variable {n : ℕ}

/-- The layer with its mean written as a quotient, as an array. -/
def layerDiv (x s : Mat n 64) (c : (⟨1, ![n]⟩ : Shape).Idx → EReal) (Wl : Mat 64 64) (b : (⟨1, ![64]⟩ : Shape).Idx → EReal)
    (Wr : Mat 64 64) : Mat n 64 :=
  fun i => elu1 (preDiv x s c Wl b Wr ⟨(i 0).val, idx2_lt0 i⟩ ⟨(i 1).val, idx2_lt1 i⟩)

theorem layerDiv_apply (x s : Mat n 64) (c : (⟨1, ![n]⟩ : Shape).Idx → EReal) (Wl : Mat 64 64) (b : (⟨1, ![64]⟩ : Shape).Idx → EReal)
    (Wr : Mat 64 64) (p : Fin n) (q : Fin 64) : layerDiv x s c Wl b Wr (ix2 p q) = elu1 (preDiv x s c Wl b Wr p q) := rfl

/-- The product spelling of the layer is the quotient spelling when, row by row, the scale is the reciprocal of a count
    that is not zero and the bias row is the bias vector. -/
theorem layerMul_eq_layerDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64)
    (hinv : ∀ p : Fin n, inv (ix2 p (0 : Fin 1)) = Ideal.div (Ideal.ofBits .f32 0x3F800000#32) (c (ix1 p)))
    (hc : ∀ p : Fin n, c (ix1 p) ≠ 0) (hb : ∀ q : Fin 64, b2 (ix2 (0 : Fin 1) q) = b (ix1 q)) :
    layerMul x s inv Wl b2 Wr = layerDiv x s c Wl b Wr := by
  funext i
  obtain ⟨p, q, rfl⟩ : ∃ (p : Fin n) (q : Fin 64), i = ix2 p q := ⟨i 0, i 1, eq_ix2 i⟩
  rw [layerMul_apply, layerDiv_apply, preMul_eq_preDiv x s inv c Wl b2 b Wr p q (hinv p) (hc p) (hb q)]

end Cert.LayerLaws

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.LibHostRows.lean ====
/-
  Two host operations read at an index, on the extended reals.

  • A rank-0 array broadcast to any shape reads, at every index, its one entry.
  • The host's float sum of an [a, b] array over axis 1, read at row p, is the initial value plus the sum over the row.
  • The entry-by-entry operations (maximum, difference, the host's exponential and logarithm) read at an index.
-/
import Idealize.ShloMosaic.Lib.Pipeline.Value
import Idealize.ShloMosaic.Lib.ValueIdx
import Idealize.ShloMosaic.PureOps.Ideal.Laws
import proofs.«127123_j21672404975748_1_alg».proof.Proof.LibRowLayout

noncomputable section

open scoped BigOperators

namespace Cert.HostRows

open Idealize.ShloMosaic Idealize.ShloMosaic.ValueIdx

/-- The one index of a rank-0 array. -/
def unit0 : (⟨0, ![]⟩ : Shape).Idx := fun a => a.elim0

/-- A rank-0 array broadcast to shape `t` reads its one entry at every index. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x unit0 :=
  broadcastInDim_apply ![] h x j unit0 fun a => a.elim0

/-- The host's float sum of an [a, b] array over axis 1, at row p: the initial value plus the sum over the row. -/
theorem hostReduceAdd_row {a b : ℕ} (x : (⟨2, ![a, b]⟩ : Shape).Idx → EReal) (init : EReal)
    (h' : (⟨2, ![a, b]⟩ : Shape).ReducesTo [1] (⟨1, ![a]⟩ : Shape))
    (h : (⟨2, ![a, b]⟩ : Shape).Reduces [1] (⟨1, ![a]⟩ : Shape)) (p : Fin a) :
    Ideal.hostReduceAdd h' x init (ix1 p) = init + ∑ j : Fin b, x (ix2 p j) := by
  refine (Ideal.hostReduceAdd_single h' h x init (ix1 p)).trans ?_
  exact congrArg (init + ·) (Finset.sum_congr rfl fun k _ => congrArg x (Cert.RowLayout.lift_row h p k))

/-! ## Entry-by-entry operations at an index -/

variable {s : Shape}

theorem maximumf_at (a b : FVec Ideal s .f32) (i : s.Idx) : maximumf a b i = max (a i) (b i) := rfl
theorem subf_at (a b : FVec Ideal s .f32) (i : s.Idx) : subf a b i = a i - b i := rfl
theorem hostExp_at (a : FVec Ideal s .f32) (i : s.Idx) : Host.exp a i = Ideal.exp (a i) := rfl
theorem hostLog_at (a : FVec Ideal s .f32) (i : s.Idx) : Host.log a i = Ideal.log (a i) := rfl

end Cert.HostRows

end
-- ==== Proof.LogitsLaw.lean ====
/-
  One row of logits, read entry by entry on the extended reals.

  A row x (2048 entries) is sent to z_j = ∑_k x_k · W(k, j) (1024 entries), divided by max(√(∑_j z_j · z_j), ε) with ε the
  binary32 word 0x2B8CBCCC, and multiplied by a 1024 × 1000 matrix C:
      L_q = ∑_j (z_j / max(√(∑_j' z_j' · z_j'), ε)) · C(j, q).
  Two programs compute it: one for a block of 1024 rows with two matrix products into zero accumulators, a sum along the
  lanes, a column cast and a row broadcast; one for 4096 rows with two contractions, a float sum over axis 1, three
  broadcasts and a transpose of C. On the extended reals every operation is the exact one and a change of float format
  is the identity, so both are THE SAME sums: nothing is distributed, nothing needs to be finite, the sums are only
  re-indexed by their contracted coordinate.
-/
import proofs.«127123_j21672404975748_1_alg».proof.Proof.Gen.KernelIdeal.Skeleton
import proofs.«127123_j21672404975748_1_alg».proof.Proof.Gen.ReferenceIdeal
import proofs.«127123_j21672404975748_1_alg».proof.Proof.LibLayerLaws
import proofs.«127123_j21672404975748_1_alg».proof.Proof.LibLayerHost
import proofs.«127123_j21672404975748_1_alg».proof.Proof.LibRowLayout
import proofs.«127123_j21672404975748_1_alg».proof.Proof.LibHostRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Logits

open Idealize.ShloMosaic Idealize.ShloMosaic.ValueIdx

/-! ## The row law -/

/-- The projected row: z_j = ∑_k x_k · W(k, j). -/
def zrow (x : Fin 2048 → EReal) (W : Fin 2048 → Fin 1024 → EReal) (j : Fin 1024) : EReal := ∑ k : Fin 2048, x k * W k j

/-- The row of logits: L_q = ∑_j (z_j / max(√(∑_j' z_j' · z_j'), ε)) · C(j, q). -/
def Lrow (x : Fin 2048 → EReal) (W : Fin 2048 → Fin 1024 → EReal) (C : Fin 1024 → Fin 1000 → EReal) (q : Fin 1000) : EReal :=
  ∑ j : Fin 1024, Ideal.div (zrow x W j)
    (max (Ideal.sqrt (∑ j' : Fin 1024, zrow x W j' * zrow x W j')) (Ideal.ofBits .f32 0x2B8CBCCC#32)) * C j q

/-! ## The block of 1024 rows -/

section Block

open Cert.KernelIdeal

/-- The first product into a zero accumulator, at (p, j): the sum over the 2048 contracted coordinates. -/
theorem block_proj_apply (l : FVec Ideal S1024x2048 .bf16) (r : FVec Ideal S2048x1024 .bf16) (p j : Fin 1024) :
    matmul dot_S1024x2048_S2048x1024_S1024x1024_1_0_0_1_n_n none l r (constant S1024x1024 .f32 0x00000000#32) (ix2 p j)
      = ∑ k : Fin 2048, l (ix2 p k) * r (ix2 k j) :=
  (Ideal.matmul_constant_zero_apply dot_S1024x2048_S2048x1024_S1024x1024_1_0_0_1_n_n none l r (ix2 p j)).trans
    (Cert.LayerLaws.sum_inner dot_S1024x2048_S2048x1024_S1024x1024_1_0_0_1_n_n rfl rfl
      (fun _ _ => rfl) (fun _ _ => rfl) (fun _ _ => rfl) (fun _ _ => rfl) l r p j)

/-- The second product into a zero accumulator, at (p, q): the sum over the 1024 contracted coordinates. -/
theorem block_out_apply (l : FVec Ideal S1024x1024 .bf16) (r : FVec Ideal S1024x1000 .bf16) (p : Fin 1024) (q : Fin 1000) :
    matmul dot_S1024x1024_S1024x1000_S1024x1000_1_0_0_1_n_n none l r (constant S1024x1000 .f32 0x00000000#32) (ix2 p q)
      = ∑ j : Fin 1024, l (ix2 p j) * r (ix2 j q) :=
  (Ideal.matmul_constant_zero_apply dot_S1024x1024_S1024x1000_S1024x1000_1_0_0_1_n_n none l r (ix2 p q)).trans
    (Cert.LayerLaws.sum_inner dot_S1024x1024_S1024x1000_S1024x1000_1_0_0_1_n_n rfl rfl
      (fun _ _ => rfl) (fun _ _ => rfl) (fun _ _ => rfl) (fun _ _ => rfl) l r p q)

/-- The sum along the lanes of a 1024 × 1024 array, at row p. -/
theorem block_lane_sum (src : FVec Ideal S1024x1024 .f32) (h : S1024x1024.Reduces [1] S1024) (hφ : FKind.Formats .f32)
    (hacc : (0x00000000#32 : BitVec 32) = 0x00000000#32) (p : Fin 1024) :
    multiReduction .add [1] S1024 src 0x00000000#32 h hφ hacc (ix1 p) = ∑ j : Fin 1024, src (ix2 p j) :=
  (Ideal.multiReduction_add_single src 0x00000000#32 h hφ hacc (ix1 p)).trans
    (Finset.sum_congr rfl fun k _ => congrArg src (Cert.RowLayout.lift_row h p k))

/-- The projected block, the loads read through their identity casts, at (p, j): the projected row of row p at j. -/
theorem block_z_apply (x0 : FVec Ideal S1024x2048 .bf16) (x1 : FVec Ideal S2048x1024 .bf16)
    (h0 : S1024x2048.ShapeCasts S1024x2048) (h1 : S2048x1024.ShapeCasts S2048x1024) (p j : Fin 1024) :
    matmul dot_S1024x2048_S2048x1024_S1024x1024_1_0_0_1_n_n none (shapeCast S1024x2048 x0 h0) (shapeCast S2048x1024 x1 h1)
        (constant S1024x1024 .f32 0x00000000#32) (ix2 p j)
      = zrow (fun k => x0 (ix2 p k)) (fun k j => x1 (ix2 k j)) j :=
  (block_proj_apply _ _ p j).trans
    (Finset.sum_congr rfl fun k _ =>
      congrArg₂ (· * ·) (congrFun (shapeCast_self x0 h0) (ix2 p k)) (congrFun (shapeCast_self x1 h1) (ix2 k j)))

/-- THE BLOCK'S STORED VALUE AT (p, q): the logit q of row p of the first load, with the second load as W and the third
    as C. -/
theorem payload_apply (x0 : FVec Ideal S1024x2048 .bf16) (x1 : FVec Ideal S2048x1024 .bf16) (x2 : FVec Ideal S1024x1000 .bf16)
    (p : Fin 1024) (q : Fin 1000) :
    Cert.KernelIdeal.Gen.k0_pay1 (F := Ideal) x0 x1 x2 (ix2 p q)
      = Lrow (fun k => x0 (ix2 p k)) (fun k j => x1 (ix2 k j)) (fun j q' => x2 (ix2 j q')) q := by
  refine (block_out_apply _ _ p q).trans ?_
  refine Finset.sum_congr rfl fun j _ => ?_
  refine congrArg₂ (· * ·) ?_ ?_
  · -- the quotient: the format change is the identity, the division is entry by entry
    refine congrArg₂ Ideal.div ?_ ?_
    · exact block_z_apply x0 x1 _ _ p j
    · -- the divisor: the row broadcast of the column max(√(lane sum), ε)
      refine (Cert.RowLayout.broadcastTo_a1_ab_apply _ _ p j).trans ?_
      refine congrArg₂ max ?_ rfl
      refine congrArg Ideal.sqrt ?_
      refine (Cert.RowLayout.shapeCast_a_a1_apply _ _ p 0).trans ?_
      refine (block_lane_sum _ _ _ _ p).trans ?_
      refine Finset.sum_congr rfl fun j' _ => ?_
      exact congrArg₂ (· * ·) (block_z_apply x0 x1 _ _ p j') (block_z_apply x0 x1 _ _ p j')
  · exact congrFun (shapeCast_self x2 _) (ix2 j q)

end Block

/-! ## The 4096 rows -/

section Rows

open Cert.ReferenceIdeal Cert.ReferenceIdeal.Facts₀

/-- The first contraction, at (r, j): the sum over the 2048 contracted coordinates. -/
theorem rows_proj_apply (l : FVec Ideal S4096x2048 .f32) (w : FVec Ideal S2048x1024 .f32) (r : Fin 4096) (j : Fin 1024) :
    Host.dotGeneral dot_S4096x2048_S2048x1024_S4096x1024_1_0_0_1_n_n none l w (ix2 r j)
      = ∑ k : Fin 2048, l (ix2 r k) * w (ix2 k j) :=
  (Ideal.dotGeneral_apply dot_S4096x2048_S2048x1024_S4096x1024_1_0_0_1_n_n none .single l w (ix2 r j)).trans
    (Cert.LayerLaws.sum_inner dot_S4096x2048_S2048x1024_S4096x1024_1_0_0_1_n_n rfl rfl
      (fun _ _ => rfl) (fun _ _ => rfl) (fun _ _ => rfl) (fun _ _ => rfl) l w r j)

/-- The second contraction, at (r, q): the sum over the 1024 contracted coordinates. -/
theorem rows_out_apply (l : FVec Ideal S4096x1024 .f32) (c : FVec Ideal S1024x1000 .f32) (r : Fin 4096) (q : Fin 1000) :
    Host.dotGeneral dot_S4096x1024_S1024x1000_S4096x1000_1_0_0_1_n_n none l c (ix2 r q)
      = ∑ j : Fin 1024, l (ix2 r j) * c (ix2 j q) :=
  (Ideal.dotGeneral_apply dot_S4096x1024_S1024x1000_S4096x1000_1_0_0_1_n_n none .single l c (ix2 r q)).trans
    (Cert.LayerLaws.sum_inner dot_S4096x1024_S1024x1000_S4096x1000_1_0_0_1_n_n rfl rfl
      (fun _ _ => rfl) (fun _ _ => rfl) (fun _ _ => rfl) (fun _ _ => rfl) l c r q)

/-- The float sum of a 4096 × 1024 array over axis 1 from the zero word, at row r: the sum over the row (the zero word
    denotes 0, and 0 + s = s). -/
theorem rows_sum (src : FVec Ideal S4096x1024 .f32) (h' : S4096x1024.ReducesTo [1] S4096) (hu : 0 < S_.numel) (r : Fin 4096) :
    Host.reduceAdd src (constant (F := Ideal) S_ .f32 0x00000000#32) h' hu (ix1 r) = ∑ j : Fin 1024, src (ix2 r j) :=
  (Cert.HostRows.hostReduceAdd_row src _ h' (by decide) r).trans
    ((congrArg (· + ∑ j : Fin 1024, src (ix2 r j)) Ideal.ofBits_zero_f32).trans (zero_add _))

/-- The logits of 4096 rows x against W and the transpose of Cn, as the operations compute them. -/
def refLogits (x : FVec Ideal S4096x2048 .f32) (W : FVec Ideal S2048x1024 .f32) (Cn : FVec Ideal S1000x1024 .f32) :
    FVec Ideal S4096x1000 .f32 :=
  Host.dotGeneral dot_S4096x1024_S1024x1000_S4096x1000_1_0_0_1_n_n none (Host.divf (Host.dotGeneral dot_S4096x2048_S2048x1024_S4096x1024_1_0_0_1_n_n none x W) (broadcastInDim S4096x1024 ![0, 1] bcast_S4096x1_S4096x1024_0_1 (maximumf (Host.sqrt (broadcastInDim S4096x1 ![0] bcast_S4096_S4096x1_0 (Host.reduceAdd (mulf (Host.dotGeneral dot_S4096x2048_S2048x1024_S4096x1024_1_0_0_1_n_n none x W) (Host.dotGeneral dot_S4096x2048_S2048x1024_S4096x1024_1_0_0_1_n_n none x W)) (constant S_ .f32 0x00000000#32) reducesTo_S4096x1024_S4096_d1 h_S_))) (broadcastInDim S4096x1 ![] bcast_S_S4096x1 (constant S_ .f32 0x2B8CBCCC#32))))) (transpose S1024x1000 [1, 0] Cn transposes_S1000x1024_S1024x1000_1_0)

/-- The projected rows at (r, j): the projected row of row r at j. -/
theorem rows_z_apply (x : FVec Ideal S4096x2048 .f32) (W : FVec Ideal S2048x1024 .f32) (r : Fin 4096) (j : Fin 1024) :
    Host.dotGeneral dot_S4096x2048_S2048x1024_S4096x1024_1_0_0_1_n_n none x W (ix2 r j)
      = zrow (fun k => x (ix2 r k)) (fun k j => W (ix2 k j)) j :=
  rows_proj_apply x W r j

/-- THE ROWS' LOGITS AT (r, q): the logit q of row r of x, with W and the transpose of Cn. -/
theorem refLogits_apply (x : FVec Ideal S4096x2048 .f32) (W : FVec Ideal S2048x1024 .f32) (Cn : FVec Ideal S1000x1024 .f32)
    (r : Fin 4096) (q : Fin 1000) :
    refLogits x W Cn (ix2 r q)
      = Lrow (fun k => x (ix2 r k)) (fun k j => W (ix2 k j)) (fun j q' => Cn (ix2 q' j)) q := by
  refine (rows_out_apply _ _ r q).trans ?_
  refine Finset.sum_congr rfl fun j _ => ?_
  refine congrArg₂ (· * ·) ?_ ?_
  · -- the quotient is entry by entry
    refine congrArg₂ Ideal.div ?_ ?_
    · exact rows_z_apply x W r j
    · -- the divisor: the column max(√(row sum), ε) broadcast across the columns
      refine (Cert.LayerLaws.bcast_cols_apply _ _ r j).trans ?_
      refine congrArg₂ max ?_ ?_
      · refine congrArg Ideal.sqrt ?_
        refine (Cert.LayerLaws.bcast_col_apply _ _ r 0).trans ?_
        refine (rows_sum _ _ _ r).trans ?_
        refine Finset.sum_congr rfl fun j' _ => ?_
        exact congrArg₂ (· * ·) (rows_z_apply x W r j') (rows_z_apply x W r j')
      · exact Cert.HostRows.bcast_scalar_apply _ _ _
  · exact transpose_ix2_apply Cn _ j q

end Rows

end Cert.Logits

end
-- ==== Proof.KernelIdealLogits.lean ====
/-
  The logits array after the region, as ONE function of the three operand arrays.

  Grid point `t` (of 16) takes rows 1024 t … 1024 t + 1023 of the stacked inputs, all of the weights and all of the
  transposed prototypes, and writes back rows 1024 t … 1024 t + 1023 of the logits.  Entry (p, q) of what it writes is
  the row law applied to row 1024 t + p of the stacked inputs: it depends on that one row only.  The sixteen
  blocks tile the 16384 rows, so the whole array ends holding, at (R, q), the row law of row R.
-/
import proofs.«127123_j21672404975748_1_alg».proof.Proof.KernelIdealAround
import proofs.«127123_j21672404975748_1_alg».proof.Proof.LogitsLaw
import Idealize.ShloMosaic.Lib.Pipeline.Value
import Idealize.ShloMosaic.Lib.ValueIdx

noncomputable section

namespace Cert.KernelIdeal.Around

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The logits of the stacked inputs `X`, the weights `Wb` and the transposed prototypes `C`: at (R, q), the row law
    of row R. -/
def logitsOf (X : FVec Ideal S16384x2048 .bf16) (Wb : FVec Ideal S2048x1024 .bf16) (C : FVec Ideal S1024x1000 .bf16) :
    FVec Ideal S16384x1000 .f32 :=
  fun i => Cert.Logits.Lrow (fun k => X (ix2 (⟨(i 0).val, idx2_lt0 i⟩ : Fin 16384) k)) (fun k j => Wb (ix2 k j))
    (fun j q' => C (ix2 j q')) (⟨(i 1).val, idx2_lt1 i⟩ : Fin 1000)

theorem logitsOf_apply (X : FVec Ideal S16384x2048 .bf16) (Wb : FVec Ideal S2048x1024 .bf16) (C : FVec Ideal S1024x1000 .bf16)
    (R : Fin 16384) (q : Fin 1000) :
    logitsOf X Wb C (ix2 R q) = Cert.Logits.Lrow (fun k => X (ix2 R k)) (fun k j => Wb (ix2 k j)) (fun j q' => C (ix2 j q')) q := rfl

/-- The printed index maps over the grid: the row-blocked windows sit at block `t`, the resident ones at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 16 := by
  have h := t.isLt
  have hN : cfg0.N = 16 := N_0
  omega

/-- The stacked inputs' block at point `t`, entry (p, k): row 1024 t + p of the array. -/
theorem read_rows (c : Dev nD) (t : Fin cfg0.N) (p : Fin 1024) (k : Fin 2048) :
    iblk m c 0 t (ix2 p k)
      = V m c main_v24 (ix2 (⟨t.val * 1024 + p.val, by have := t_lt t; have := p.isLt; omega⟩ : Fin 16384) k) := by
  obtain ⟨e0, e1, -⟩ := idx_facts t
  show V m c main_v24 (((cfg0.win 0).blk t).view.emb (ix2 p k)) = V m c main_v24 _
  refine congrArg (V m c main_v24) (funext fun a => Fin.ext ?_)
  match a with
  | ⟨0, _⟩ => show win0_0.index t (0 : Fin 2) * 1024 + 1 * p.val = t.val * 1024 + p.val; omega
  | ⟨1, _⟩ => show win0_0.index t (1 : Fin 2) * 2048 + 1 * k.val = k.val; omega

/-- The weights' block at any point is the whole matrix. -/
theorem read_weights (c : Dev nD) (t : Fin cfg0.N) (k : Fin 2048) (j : Fin 1024) :
    iblk m c 1 t (ix2 k j) = V m c main_v25 (ix2 k j) := by
  obtain ⟨-, -, e0, e1, -⟩ := idx_facts t
  show V m c main_v25 (((cfg0.win 1).blk t).view.emb (ix2 k j)) = V m c main_v25 _
  refine congrArg (V m c main_v25) (funext fun a => Fin.ext ?_)
  match a with
  | ⟨0, _⟩ => show win0_1.index t (0 : Fin 2) * 2048 + 1 * k.val = k.val; omega
  | ⟨1, _⟩ => show win0_1.index t (1 : Fin 2) * 1024 + 1 * j.val = j.val; omega

/-- The transposed prototypes' block at any point is the whole matrix. -/
theorem read_protos (c : Dev nD) (t : Fin cfg0.N) (j : Fin 1024) (q : Fin 1000) :
    iblk m c 2 t (ix2 j q) = V m c main_v33 (ix2 j q) := by
  obtain ⟨-, -, -, -, e0, e1, -⟩ := idx_facts t
  show V m c main_v33 (((cfg0.win 2).blk t).view.emb (ix2 j q)) = V m c main_v33 _
  refine congrArg (V m c main_v33) (funext fun a => Fin.ext ?_)
  match a with
  | ⟨0, _⟩ => show win0_2.index t (0 : Fin 2) * 1024 + 1 * j.val = j.val; omega
  | ⟨1, _⟩ => show win0_2.index t (1 : Fin 2) * 1000 + 1 * q.val = q.val; omega

/-- Entry (p, q) of the logits' block at point `t` sits at row 1024 t + p of the array. -/
theorem emb_logits (t : Fin cfg0.N) (p : Fin 1024) (q : Fin 1000) :
    ((cfg0.win 3).blk t).view.emb (ix2 p q)
      = ix2 (⟨t.val * 1024 + p.val, by have := t_lt t; have := p.isLt; omega⟩ : Fin 16384) q := by
  obtain ⟨-, -, -, -, -, -, e0, e1⟩ := idx_facts t
  refine funext fun a => Fin.ext ?_
  match a with
  | ⟨0, _⟩ => show win0_3.index t (0 : Fin 2) * 1024 + 1 * p.val = t.val * 1024 + p.val; omega
  | ⟨1, _⟩ => show win0_3.index t (1 : Fin 2) * 1000 + 1 * q.val = q.val; omega

/-- What point `t` writes back is block `t` of the logits of the operands as the region finds them. -/
theorem flushed_logits (c : Dev nD) (t : Fin cfg0.N) :
    (dats m 0 c).flushed 3 t
      = ((cfg0.win 3).blk t).view.read (Elt Ideal) (logitsOf (V m c main_v24) (V m c main_v25) (V m c main_v33)) := by
  show (cfg0.win 3).cut (grid0.coords t) ((dats m 0 c).after 3 t) = _
  rw [after0_3]
  unfold out0_3
  rw [View.canon_unit_zero zero_offsets]
  simp only [View.ld_unit_zero (S := S1024x2048) zero_offsets, View.ld_unit_zero (S := S2048x1024) zero_offsets,
    View.ld_unit_zero (S := S1024x1000) zero_offsets]
  funext j
  obtain ⟨p, q, rfl⟩ : ∃ (p : Fin 1024) (q : Fin 1000), j = ix2 p q := ⟨j 0, j 1, eq_ix2 j⟩
  show k0_pay1 (F := Ideal) (iblk m c 0 t) (iblk m c 1 t) (iblk m c 2 t) (ix2 p q)
    = logitsOf (V m c main_v24) (V m c main_v25) (V m c main_v33) (((cfg0.win 3).blk t).view.emb (ix2 p q))
  refine (Cert.Logits.payload_apply (iblk m c 0 t) (iblk m c 1 t) (iblk m c 2 t) p q).trans ?_
  rw [emb_logits t p q, logitsOf_apply]
  simp only [read_rows, read_weights, read_protos]

/-- An index of the array is in point `t`'s block iff its row is among that block's 1024 rows. -/
theorem mem_block (t : Fin cfg0.N) (i : S16384x1000.Idx) :
    i ∈ ((cfg0.win 3).blk t).view.set
      ↔ ∀ a : Fin 2, win0_3.index t a * S1024x1000.size a ≤ (i a).val ∧ (i a).val < win0_3.index t a * S1024x1000.size a + S1024x1000.size a := by
  show i ∈ ((View.whole main_v34).slice (win0_3.rect t)).set ↔ _
  rw [View.set_slice_whole, Rect.mem_set_unit]
  exact Iff.rfl

/-- Every index is in the block of the point its row falls in. -/
theorem covered (i : S16384x1000.Idx) :
    ∃ t : Fin cfg0.N, (cfg0.win 3).flush t = true ∧ i ∈ ((cfg0.win 3).blk t).view.set := by
  have hi0 : (i 0).val < 16384 := (i 0).isLt
  have hi1 : (i 1).val < 1000 := (i 1).isLt
  have hN : cfg0.N = 16 := N_0
  let t : Fin cfg0.N := ⟨(i 0).val / 1024, by rw [hN]; omega⟩
  obtain ⟨-, -, -, -, -, -, e0, e1⟩ := idx_facts t
  have ht : t.val = (i 0).val / 1024 := rfl
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1000 ≤ (i 1).val ∧ (i 1).val < win0_3.index t (1 : Fin 2) * 1000 + 1000; omega

/-- The logits array after the region. -/
theorem final_logits (c : Dev nD) :
    (dats m 0 c).arrAt 3 cfg0.N = logitsOf (V m c main_v24) (V m c main_v25) (V m c main_v33) :=
  (dats m 0 c).arrAt_eq_of_cover 3 (logitsOf (V m c main_v24) (V m c main_v25) (V m c main_v33))
    (fun t _ => flushed_logits m c t) covered

end Cert.KernelIdeal.Around

end
-- ==== Proof.KernelIdealEntry.lean ====
/-
  What the kernel's three operands hold when the region is entered, as terms of the argument arrays.

  • The first operand stacks four 4096 x 2048 arrays by rows: the two inputs and their two batch mixtures
    (x + the other input's rows taken at the permutation, halved), each rounded to bf16 — at the exact instance a
    change of format is the identity.
  • The second is the backbone weight matrix.
  • The third is the first 1000 prototype rows, each divided by its Euclidean norm (bounded below by a small
    constant), transposed to 1024 x 1000.
-/
import proofs.«127123_j21672404975748_1_alg».proof.Proof.KernelIdealAround
import Idealize.ShloMosaic.Lib.StableHlo.Run
import Idealize.ShloMosaic.PureOps.Ideal

noncomputable section

namespace Cert.KernelIdeal.Around

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- A batch mixture: `a` plus the rows of `b` taken at the (wrapped) indices `i3`, halved. -/
def mix (a b : (⟨S4096x2048, .f32⟩ : BufTy).Contents (Elt Ideal)) (i3 : (⟨S4096, .i32⟩ : BufTy).Contents (Elt Ideal)) :
    (⟨S4096x2048, .f32⟩ : BufTy).Contents (Elt Ideal) :=
  mulf (addf a (Host.gather gather_S4096x2048_S4096x1_S4096x2048_1_0_n_n_0_1_12048 b
      (broadcastInDim S4096x1 ![0] bcast_S4096_S4096x1_0
        (select (cmpi .slt i3 (broadcastInDim S4096 ![] bcast_S_S4096 (constantI S_ 32 0#32)))
          (addi i3 (broadcastInDim S4096 ![] bcast_S_S4096 (constantI S_ 32 4096#32))) i3))))
    (broadcastInDim S4096x2048 ![] bcast_S_S4096x2048 (constant (F := Ideal) S_ .f32 0x3F000000#32))

/-- The prototypes, each row divided by its norm bounded below. -/
def protoN (a5 : (⟨S2000x1024, .f32⟩ : BufTy).Contents (Elt Ideal)) : (⟨S2000x1024, .f32⟩ : BufTy).Contents (Elt Ideal) :=
  Host.divf a5 (broadcastInDim S2000x1024 ![0, 1] bcast_S2000x1_S2000x1024_0_1
    (maximumf (Host.sqrt (broadcastInDim S2000x1 ![0] bcast_S2000_S2000x1_0
        (Host.reduceAdd (mulf a5 a5) (constant (F := Ideal) S_ .f32 0x00000000#32) reducesTo_S2000x1024_S2000_d1 h_S_)))
      (broadcastInDim S2000x1 ![] bcast_S_S2000x1 (constant (F := Ideal) S_ .f32 0x2B8CBCCC#32))))

/-- Four 4096 x 2048 arrays stacked by rows (each rounded to bf16, the identity at the exact instance). -/
def stack4 (x0 x1 x2 x3 : FVec Ideal S4096x2048 .f32) : FVec Ideal S16384x2048 .bf16 :=
  concatenate S16384x2048 0
    [⟨S4096x2048, (truncf .bf16 x0 bitsLt_bf16_f32 : FVec Ideal S4096x2048 .bf16)⟩,
     ⟨S4096x2048, (truncf .bf16 x1 bitsLt_bf16_f32 : FVec Ideal S4096x2048 .bf16)⟩,
     ⟨S4096x2048, (truncf .bf16 x2 bitsLt_bf16_f32 : FVec Ideal S4096x2048 .bf16)⟩,
     ⟨S4096x2048, (truncf .bf16 x3 bitsLt_bf16_f32 : FVec Ideal S4096x2048 .bf16)⟩]
    concatenates_S4096x2048_S4096x2048_S4096x2048_S4096x2048_S16384x2048_d0

/-- The first operand: the two inputs and their two mixtures, stacked by rows. -/
theorem V_stacked (c : Dev nD) :
    (V m c main_v24 : FVec Ideal S16384x2048 .bf16)
      = stack4 (m ((c.tc : Thread nD τ).loc main_arg0)) (m ((c.tc : Thread nD τ).loc main_arg1)) (mix (m ((c.tc : Thread nD τ).loc main_arg0)) (m ((c.tc : Thread nD τ).loc main_arg1)) (m ((c.tc : Thread nD τ).loc main_arg3))) (mix (m ((c.tc : Thread nD τ).loc main_arg1)) (m ((c.tc : Thread nD τ).loc main_arg0)) (m ((c.tc : Thread nD τ).loc main_arg3))) := by
  dsimp only [V, V0]
  simp only [preOps, hostOps0, hostOps0_1, hostOps0_2, List.flatten_cons, List.flatten_nil, List.append_nil, List.cons_append, List.nil_append]
  after_results
  all_goals first | rfl | (unfold stack4 mix; rfl)

/-- The second operand: the backbone weights. -/
theorem V_weights (c : Dev nD) :
    (V m c main_v25 : FVec Ideal S2048x1024 .bf16)
      = (truncf .bf16 ((m ((c.tc : Thread nD τ).loc main_arg4)) : FVec Ideal S2048x1024 .f32) bitsLt_bf16_f32 : FVec Ideal S2048x1024 .bf16) := by
  dsimp only [V, V0]
  simp only [preOps, hostOps0, hostOps0_1, hostOps0_2, List.flatten_cons, List.flatten_nil, List.append_nil, List.cons_append, List.nil_append]
  after_results
  all_goals rfl

/-- The normalised first 1000 prototypes. -/
def protoRows (a5 : (⟨S2000x1024, .f32⟩ : BufTy).Contents (Elt Ideal)) : FVec Ideal S1000x1024 .f32 :=
  extractStridedSlice S1000x1024 ![0, 0] (protoN a5) slices_S2000x1024_S1000x1024_0_0

/-- The third operand: the normalised first 1000 prototypes, transposed. -/
theorem V_protoT (c : Dev nD) :
    (V m c main_v33 : FVec Ideal S1024x1000 .bf16)
      = (truncf .bf16 (transpose S1024x1000 [1, 0] (protoRows (m ((c.tc : Thread nD τ).loc main_arg5))) transposes_S1000x1024_S1024x1000_1_0 : FVec Ideal S1024x1000 .f32)
          bitsLt_bf16_f32 : FVec Ideal S1024x1000 .bf16) := by
  dsimp only [V, V0]
  simp only [preOps, hostOps0, hostOps0_1, hostOps0_2, List.flatten_cons, List.flatten_nil, List.append_nil, List.cons_append, List.nil_append]
  after_results
  all_goals first | rfl | (unfold protoRows protoN; rfl)

end Cert.KernelIdeal.Around

end
-- ==== Proof.KernelIdealSlices.lean ====
/-
  The four quarters of the logits.

  The kernel's first operand stacks four 4096 x 2048 arrays by rows, so row 4096 k + r of the stack is row r of piece k,
  and the row law of that row is the reference's logits of piece k at row r.  Hence the k-th block of 4096 rows of the
  logits array is the reference's logits array of piece k: the two are the same sums, entry by entry.
-/
import proofs.«127123_j21672404975748_1_alg».proof.Proof.KernelIdealLogits
import proofs.«127123_j21672404975748_1_alg».proof.Proof.KernelIdealEntry
import proofs.«127123_j21672404975748_1_alg».proof.Proof.LogitsLaw
import Idealize.ShloMosaic.Lib.Pipeline.Value
import Idealize.ShloMosaic.Lib.ValueIdx

noncomputable section

namespace Cert.KernelIdeal.Around

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The four pieces of the stack, each with its shape. -/
abbrev pieces (x0 x1 x2 x3 : FVec Ideal S4096x2048 .f32) : List ((s : Shape) × (s.Idx → Ideal .bf16)) :=
  [⟨S4096x2048, (truncf .bf16 x0 bitsLt_bf16_f32 : FVec Ideal S4096x2048 .bf16)⟩,
   ⟨S4096x2048, (truncf .bf16 x1 bitsLt_bf16_f32 : FVec Ideal S4096x2048 .bf16)⟩,
   ⟨S4096x2048, (truncf .bf16 x2 bitsLt_bf16_f32 : FVec Ideal S4096x2048 .bf16)⟩,
   ⟨S4096x2048, (truncf .bf16 x3 bitsLt_bf16_f32 : FVec Ideal S4096x2048 .bf16)⟩]

/-- Row 0 + r of the stack is row r of piece 0. -/
theorem stack4_row0 (x0 x1 x2 x3 : FVec Ideal S4096x2048 .f32) (r : Fin 4096) (k' : Fin 2048) (hR : 0 + r.val < 16384) :
    stack4 x0 x1 x2 x3 (ix2 (⟨0 + r.val, hR⟩ : Fin 16384) k') = x0 (ix2 r k') :=
  concatenate_apply_piece (t := S16384x2048) (0 : Fin 2) (pieces x0 x1 x2 x3) concatenates_S4096x2048_S4096x2048_S4096x2048_S4096x2048_S16384x2048_d0
    (ix2 (⟨0 + r.val, hR⟩ : Fin 16384) k') 0 (by show (0 : ℕ) < 4; omega) S4096x2048
    (truncf .bf16 x0 bitsLt_bf16_f32 : FVec Ideal S4096x2048 .bf16) rfl rfl 0 rfl (ix2 r k')
    (fun b hb => by
      match b with
      | ⟨0, _⟩ => exact absurd rfl hb
      | ⟨1, _⟩ => rfl)
    rfl

/-- Row 4096 + r of the stack is row r of piece 1. -/
theorem stack4_row1 (x0 x1 x2 x3 : FVec Ideal S4096x2048 .f32) (r : Fin 4096) (k' : Fin 2048) (hR : 4096 + r.val < 16384) :
    stack4 x0 x1 x2 x3 (ix2 (⟨4096 + r.val, hR⟩ : Fin 16384) k') = x1 (ix2 r k') :=
  concatenate_apply_piece (t := S16384x2048) (0 : Fin 2) (pieces x0 x1 x2 x3) concatenates_S4096x2048_S4096x2048_S4096x2048_S4096x2048_S16384x2048_d0
    (ix2 (⟨4096 + r.val, hR⟩ : Fin 16384) k') 1 (by show (1 : ℕ) < 4; omega) S4096x2048
    (truncf .bf16 x1 bitsLt_bf16_f32 : FVec Ideal S4096x2048 .bf16) rfl rfl 4096 rfl (ix2 r k')
    (fun b hb => by
      match b with
      | ⟨0, _⟩ => exact absurd rfl hb
      | ⟨1, _⟩ => rfl)
    rfl

/-- Row 8192 + r of the stack is row r of piece 2. -/
theorem stack4_row2 (x0 x1 x2 x3 : FVec Ideal S4096x2048 .f32) (r : Fin 4096) (k' : Fin 2048) (hR : 8192 + r.val < 16384) :
    stack4 x0 x1 x2 x3 (ix2 (⟨8192 + r.val, hR⟩ : Fin 16384) k') = x2 (ix2 r k') :=
  concatenate_apply_piece (t := S16384x2048) (0 : Fin 2) (pieces x0 x1 x2 x3) concatenates_S4096x2048_S4096x2048_S4096x2048_S4096x2048_S16384x2048_d0
    (ix2 (⟨8192 + r.val, hR⟩ : Fin 16384) k') 2 (by show (2 : ℕ) < 4; omega) S4096x2048
    (truncf .bf16 x2 bitsLt_bf16_f32 : FVec Ideal S4096x2048 .bf16) rfl rfl 8192 rfl (ix2 r k')
    (fun b hb => by
      match b with
      | ⟨0, _⟩ => exact absurd rfl hb
      | ⟨1, _⟩ => rfl)
    rfl

/-- Row 12288 + r of the stack is row r of piece 3. -/
theorem stack4_row3 (x0 x1 x2 x3 : FVec Ideal S4096x2048 .f32) (r : Fin 4096) (k' : Fin 2048) (hR : 12288 + r.val < 16384) :
    stack4 x0 x1 x2 x3 (ix2 (⟨12288 + r.val, hR⟩ : Fin 16384) k') = x3 (ix2 r k') :=
  concatenate_apply_piece (t := S16384x2048) (0 : Fin 2) (pieces x0 x1 x2 x3) concatenates_S4096x2048_S4096x2048_S4096x2048_S4096x2048_S16384x2048_d0
    (ix2 (⟨12288 + r.val, hR⟩ : Fin 16384) k') 3 (by show (3 : ℕ) < 4; omega) S4096x2048
    (truncf .bf16 x3 bitsLt_bf16_f32 : FVec Ideal S4096x2048 .bf16) rfl rfl 12288 rfl (ix2 r k')
    (fun b hb => by
      match b with
      | ⟨0, _⟩ => exact absurd rfl hb
      | ⟨1, _⟩ => rfl)
    rfl

/-- Entry (j, q) of the transposed 1000 x 1024 array is its entry (q, j). -/
theorem transposed_entry (Cn : FVec Ideal S1000x1024 .f32) (j : Fin 1024) (q : Fin 1000) :
    (truncf .bf16 (transpose S1024x1000 [1, 0] Cn transposes_S1000x1024_S1024x1000_1_0) bitsLt_bf16_f32 : FVec Ideal S1024x1000 .bf16) (ix2 j q)
      = Cn (ix2 q j) :=
  transpose_apply [1, 0] Cn transposes_S1000x1024_S1024x1000_1_0 (ix2 j q) (ix2 q j) (fun b => by
    match b with
    | ⟨0, _⟩ => rfl
    | ⟨1, _⟩ => rfl)

/-- Rows 0 … 4095 of the logits of the stack are the logits of piece 0. -/
theorem slice0_logits (x0 x1 x2 x3 : FVec Ideal S4096x2048 .f32) (W : FVec Ideal S2048x1024 .f32) (Cn : FVec Ideal S1000x1024 .f32) :
    extractStridedSlice S4096x1000 ![0, 0] (logitsOf (stack4 x0 x1 x2 x3) (truncf .bf16 W bitsLt_bf16_f32)
        (truncf .bf16 (transpose S1024x1000 [1, 0] Cn transposes_S1000x1024_S1024x1000_1_0) bitsLt_bf16_f32))
        slices_S16384x1000_S4096x1000_0_0
      = Cert.Logits.refLogits x0 W Cn := by
  funext i
  obtain ⟨r, q, rfl⟩ : ∃ (r : Fin 4096) (q : Fin 1000), i = ix2 r q := ⟨i 0, i 1, eq_ix2 i⟩
  have hR : 0 + r.val < 16384 := by have := r.isLt; omega
  refine (extractStridedSlice_apply _ _ _ (ix2 r q) (ix2 (⟨0 + r.val, hR⟩ : Fin 16384) q) (fun a => by
    match a with
    | ⟨0, _⟩ => rfl
    | ⟨1, _⟩ => show q.val = 0 + q.val; omega)).trans ?_
  rw [logitsOf_apply, Cert.Logits.refLogits_apply]
  have e1 : (fun k' : Fin 2048 => stack4 x0 x1 x2 x3 (ix2 (⟨0 + r.val, hR⟩ : Fin 16384) k')) = fun k' => x0 (ix2 r k') :=
    funext fun k' => stack4_row0 x0 x1 x2 x3 r k' hR
  have e3 : (fun (j : Fin 1024) (q' : Fin 1000) => (truncf .bf16 (transpose S1024x1000 [1, 0] Cn transposes_S1000x1024_S1024x1000_1_0) bitsLt_bf16_f32 : FVec Ideal S1024x1000 .bf16) (ix2 j q'))
      = fun j q' => Cn (ix2 q' j) :=
    funext fun j => funext fun q' => transposed_entry Cn j q'
  rw [e1, e3]
  rfl

/-- Rows 4096 … 8191 of the logits of the stack are the logits of piece 1. -/
theorem slice1_logits (x0 x1 x2 x3 : FVec Ideal S4096x2048 .f32) (W : FVec Ideal S2048x1024 .f32) (Cn : FVec Ideal S1000x1024 .f32) :
    extractStridedSlice S4096x1000 ![4096, 0] (logitsOf (stack4 x0 x1 x2 x3) (truncf .bf16 W bitsLt_bf16_f32)
        (truncf .bf16 (transpose S1024x1000 [1, 0] Cn transposes_S1000x1024_S1024x1000_1_0) bitsLt_bf16_f32))
        slices_S16384x1000_S4096x1000_4096_0
      = Cert.Logits.refLogits x1 W Cn := by
  funext i
  obtain ⟨r, q, rfl⟩ : ∃ (r : Fin 4096) (q : Fin 1000), i = ix2 r q := ⟨i 0, i 1, eq_ix2 i⟩
  have hR : 4096 + r.val < 16384 := by have := r.isLt; omega
  refine (extractStridedSlice_apply _ _ _ (ix2 r q) (ix2 (⟨4096 + r.val, hR⟩ : Fin 16384) q) (fun a => by
    match a with
    | ⟨0, _⟩ => rfl
    | ⟨1, _⟩ => show q.val = 0 + q.val; omega)).trans ?_
  rw [logitsOf_apply, Cert.Logits.refLogits_apply]
  have e1 : (fun k' : Fin 2048 => stack4 x0 x1 x2 x3 (ix2 (⟨4096 + r.val, hR⟩ : Fin 16384) k')) = fun k' => x1 (ix2 r k') :=
    funext fun k' => stack4_row1 x0 x1 x2 x3 r k' hR
  have e3 : (fun (j : Fin 1024) (q' : Fin 1000) => (truncf .bf16 (transpose S1024x1000 [1, 0] Cn transposes_S1000x1024_S1024x1000_1_0) bitsLt_bf16_f32 : FVec Ideal S1024x1000 .bf16) (ix2 j q'))
      = fun j q' => Cn (ix2 q' j) :=
    funext fun j => funext fun q' => transposed_entry Cn j q'
  rw [e1, e3]
  rfl

/-- Rows 8192 … 12287 of the logits of the stack are the logits of piece 2. -/
theorem slice2_logits (x0 x1 x2 x3 : FVec Ideal S4096x2048 .f32) (W : FVec Ideal S2048x1024 .f32) (Cn : FVec Ideal S1000x1024 .f32) :
    extractStridedSlice S4096x1000 ![8192, 0] (logitsOf (stack4 x0 x1 x2 x3) (truncf .bf16 W bitsLt_bf16_f32)
        (truncf .bf16 (transpose S1024x1000 [1, 0] Cn transposes_S1000x1024_S1024x1000_1_0) bitsLt_bf16_f32))
        slices_S16384x1000_S4096x1000_8192_0
      = Cert.Logits.refLogits x2 W Cn := by
  funext i
  obtain ⟨r, q, rfl⟩ : ∃ (r : Fin 4096) (q : Fin 1000), i = ix2 r q := ⟨i 0, i 1, eq_ix2 i⟩
  have hR : 8192 + r.val < 16384 := by have := r.isLt; omega
  refine (extractStridedSlice_apply _ _ _ (ix2 r q) (ix2 (⟨8192 + r.val, hR⟩ : Fin 16384) q) (fun a => by
    match a with
    | ⟨0, _⟩ => rfl
    | ⟨1, _⟩ => show q.val = 0 + q.val; omega)).trans ?_
  rw [logitsOf_apply, Cert.Logits.refLogits_apply]
  have e1 : (fun k' : Fin 2048 => stack4 x0 x1 x2 x3 (ix2 (⟨8192 + r.val, hR⟩ : Fin 16384) k')) = fun k' => x2 (ix2 r k') :=
    funext fun k' => stack4_row2 x0 x1 x2 x3 r k' hR
  have e3 : (fun (j : Fin 1024) (q' : Fin 1000) => (truncf .bf16 (transpose S1024x1000 [1, 0] Cn transposes_S1000x1024_S1024x1000_1_0) bitsLt_bf16_f32 : FVec Ideal S1024x1000 .bf16) (ix2 j q'))
      = fun j q' => Cn (ix2 q' j) :=
    funext fun j => funext fun q' => transposed_entry Cn j q'
  rw [e1, e3]
  rfl

/-- Rows 12288 … 16383 of the logits of the stack are the logits of piece 3. -/
theorem slice3_logits (x0 x1 x2 x3 : FVec Ideal S4096x2048 .f32) (W : FVec Ideal S2048x1024 .f32) (Cn : FVec Ideal S1000x1024 .f32) :
    extractStridedSlice S4096x1000 ![12288, 0] (logitsOf (stack4 x0 x1 x2 x3) (truncf .bf16 W bitsLt_bf16_f32)
        (truncf .bf16 (transpose S1024x1000 [1, 0] Cn transposes_S1000x1024_S1024x1000_1_0) bitsLt_bf16_f32))
        slices_S16384x1000_S4096x1000_12288_0
      = Cert.Logits.refLogits x3 W Cn := by
  funext i
  obtain ⟨r, q, rfl⟩ : ∃ (r : Fin 4096) (q : Fin 1000), i = ix2 r q := ⟨i 0, i 1, eq_ix2 i⟩
  have hR : 12288 + r.val < 16384 := by have := r.isLt; omega
  refine (extractStridedSlice_apply _ _ _ (ix2 r q) (ix2 (⟨12288 + r.val, hR⟩ : Fin 16384) q) (fun a => by
    match a with
    | ⟨0, _⟩ => rfl
    | ⟨1, _⟩ => show q.val = 0 + q.val; omega)).trans ?_
  rw [logitsOf_apply, Cert.Logits.refLogits_apply]
  have e1 : (fun k' : Fin 2048 => stack4 x0 x1 x2 x3 (ix2 (⟨12288 + r.val, hR⟩ : Fin 16384) k')) = fun k' => x3 (ix2 r k') :=
    funext fun k' => stack4_row3 x0 x1 x2 x3 r k' hR
  have e3 : (fun (j : Fin 1024) (q' : Fin 1000) => (truncf .bf16 (transpose S1024x1000 [1, 0] Cn transposes_S1000x1024_S1024x1000_1_0) bitsLt_bf16_f32 : FVec Ideal S1024x1000 .bf16) (ix2 j q'))
      = fun j q' => Cn (ix2 q' j) :=
    funext fun j => funext fun q' => transposed_entry Cn j q'
  rw [e1, e3]
  rfl

variable (m : (ℓ : Loc nD τ sig) → Buf (Elt Ideal) ℓ)

/-- Rows 0 … 4095 of the logits array after the region are the reference's logits of the first input. -/
theorem quarter0 (c : Dev nD) :
    extractStridedSlice S4096x1000 ![0, 0] ((dats m 0 c).arrAt 3 cfg0.N) slices_S16384x1000_S4096x1000_0_0
      = Cert.Logits.refLogits (m ((c.tc : Thread nD τ).loc main_arg0)) (m ((c.tc : Thread nD τ).loc main_arg4)) (protoRows (m ((c.tc : Thread nD τ).loc main_arg5))) := by
  rw [final_logits, V_stacked, V_weights, V_protoT]
  exact slice0_logits _ _ _ _ _ _

/-- Rows 4096 … 8191 of the logits array after the region are the reference's logits of the second input. -/
theorem quarter1 (c : Dev nD) :
    extractStridedSlice S4096x1000 ![4096, 0] ((dats m 0 c).arrAt 3 cfg0.N) slices_S16384x1000_S4096x1000_4096_0
      = Cert.Logits.refLogits (m ((c.tc : Thread nD τ).loc main_arg1)) (m ((c.tc : Thread nD τ).loc main_arg4)) (protoRows (m ((c.tc : Thread nD τ).loc main_arg5))) := by
  rw [final_logits, V_stacked, V_weights, V_protoT]
  exact slice1_logits _ _ _ _ _ _

/-- Rows 8192 … 12287 of the logits array after the region are the reference's logits of the first mixture. -/
theorem quarter2 (c : Dev nD) :
    extractStridedSlice S4096x1000 ![8192, 0] ((dats m 0 c).arrAt 3 cfg0.N) slices_S16384x1000_S4096x1000_8192_0
      = Cert.Logits.refLogits (mix (m ((c.tc : Thread nD τ).loc main_arg0)) (m ((c.tc : Thread nD τ).loc main_arg1)) (m ((c.tc : Thread nD τ).loc main_arg3))) (m ((c.tc : Thread nD τ).loc main_arg4)) (protoRows (m ((c.tc : Thread nD τ).loc main_arg5))) := by
  rw [final_logits, V_stacked, V_weights, V_protoT]
  exact slice2_logits _ _ _ _ _ _

/-- Rows 12288 … 16383 of the logits array after the region are the reference's logits of the second mixture. -/
theorem quarter3 (c : Dev nD) :
    extractStridedSlice S4096x1000 ![12288, 0] ((dats m 0 c).arrAt 3 cfg0.N) slices_S16384x1000_S4096x1000_12288_0
      = Cert.Logits.refLogits (mix (m ((c.tc : Thread nD τ).loc main_arg1)) (m ((c.tc : Thread nD τ).loc main_arg0)) (m ((c.tc : Thread nD τ).loc main_arg3))) (m ((c.tc : Thread nD τ).loc main_arg4)) (protoRows (m ((c.tc : Thread nD τ).loc main_arg5))) := by
  rw [final_logits, V_stacked, V_weights, V_protoT]
  exact slice3_logits _ _ _ _ _ _

end Cert.KernelIdeal.Around

end
-- ==== Proof.KernelIdealTail.lean ====
/-
  The scalar the kernel's program returns, as a function of the six argument arrays.

  The lines after the region compute one function of the four quarters of the logits array, the targets and the batch
  permutation.  The quarters of the array the region leaves are the logits, row by row, of the two inputs and of their
  two batch mixtures against the backbone weights and the normalised prototypes; the targets and the permutation are
  read from the arguments, which nothing has written.  So the returned scalar is that function at four arrays of logits
  computed from the arguments, and at the two integer arguments: a function of the arguments alone, named here.
-/
import proofs.«127123_j21672404975748_1_alg».proof.Proof.KernelIdealTailFn
import proofs.«127123_j21672404975748_1_alg».proof.Proof.KernelIdealFrame
import proofs.«127123_j21672404975748_1_alg».proof.Proof.KernelIdealSlices

-- an error message that prints a composed term stops early
set_option pp.maxSteps 3000
set_option pp.deepTerms false

noncomputable section

namespace Cert.KernelIdeal.Around

open Cert.KernelIdeal Cert.KernelIdeal.Gen
open Idealize.ShloMosaic Idealize.ShloMosaic.TcCoe Idealize.SL.Sem Idealize.ShloMosaic.StableHlo
open Idealize.ShloMosaic.Pipeline (Dat Cfg Window)

/-- The loss as a function of the arguments: the two inputs `a0`, `a1`, the targets `a2`, the batch permutation `a3`,
    the backbone weights `a4` and the prototypes `a5`.  The lines after the region, applied to the logits of `a0`, of
    `a1`, of the mixture of `a0` with `a1` along the permutation and of the mixture of `a1` with `a0`, each against the
    weights and the normalised first 1000 prototypes. -/
def lossOf (a0 a1 : (⟨S4096x2048, .f32⟩ : BufTy).Contents (Elt Ideal)) (a2 a3 : IdxVec)
    (a4 : (⟨S2048x1024, .f32⟩ : BufTy).Contents (Elt Ideal)) (a5 : (⟨S2000x1024, .f32⟩ : BufTy).Contents (Elt Ideal)) : Loss :=
  tailT (Cert.Logits.refLogits a0 a4 (protoRows a5))
    (Cert.Logits.refLogits a1 a4 (protoRows a5))
    (Cert.Logits.refLogits (mix a0 a1 a3) a4 (protoRows a5))
    (Cert.Logits.refLogits (mix a1 a0 a3) a4 (protoRows a5))
    a2 a3

/-- The kernel's program returns the loss of its arguments: the lines after the region start from the region's arrays at
    their final contents and every other buffer as the region found it; the logits array's quarters are the four
    logits, and the two integer arguments are as launched. -/
theorem kernel_value (m : (ℓ : Loc nD τ sig) → Buf (Elt Ideal) ℓ) (c : Dev nD) :
    Pipeline.afterTail₀ cfgs (dats m) 0 (V0 m) tailOps c main_v170
      = lossOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  rw [tail_term]
  generalize hW : Pipeline.withArrays _ _ _ _ = W
  have e34 : W (Proc.devRef .tc main_v34) = (dats m 0 c).arrAt 3 cfg0.N := by
    rw [← hW]; exact Pipeline.withArrays_arr spec0 launch0.win.arr_inj c _ _ 3
  have e2 : W (Proc.devRef .tc main_arg2) = m ((c.tc : Thread nD τ).loc main_arg2) := by
    rw [← hW]; exact (Pipeline.withArrays_of_ne spec0 c (V0 m c) _ main_arg2 (by decide)).trans (V_main_arg2 m c)
  have e3 : W (Proc.devRef .tc main_arg3) = m ((c.tc : Thread nD τ).loc main_arg3) := by
    rw [← hW]; exact (Pipeline.withArrays_of_ne spec0 c (V0 m c) _ main_arg3 (by decide)).trans (V_main_arg3 m c)
  rw [e34, e2, e3, quarter0, quarter1, quarter2, quarter3]
  rfl

end Cert.KernelIdeal.Around

end
-- ==== Proof.RefRun.lean ====
/-
  The reference program's run, with its result as the loss of its arguments.

  The reference is a straight line of 332 host operations.  Each allocates nothing and writes exactly one buffer, its
  own result; the six argument arrays are among none of the 332 results, so they end as launched.

  Its last 243 operations are, buffer for buffer, the lines the kernel's program runs after its region, applied to
  four arrays of logits that the reference computes one input at a time: the logits of the two inputs and of their
  two batch mixtures against the backbone weights and the normalised first 1000 prototypes.  So the scalar it returns is
  the loss of its arguments — the same function of the six argument arrays that the kernel's program returns.  Both
  sides are read off the operations themselves, each operation's result being its function of its operands' results;
  the two readings are the same tree of operations and no law of arithmetic is used.
-/
import proofs.«127123_j21672404975748_1_alg».proof.Proof.RefOpsPatched
import proofs.«127123_j21672404975748_1_alg».proof.Proof.KernelIdealTail
import Idealize.ShloMosaic.Lib.StableHlo.Run

-- an error message that prints a composed term stops early
set_option pp.maxSteps 3000
set_option pp.deepTerms false

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

/-! ## Lines that write one buffer each -/

/-- Every operation of `l` allocates nothing and writes exactly one buffer: the one the list `W` names at the
    operation's place. -/
abbrev Plain (l : List (HloOp τ sig (Elt Ideal))) (W : List (Ref sig .tc)) : Prop :=
  List.Forall₂ (fun op y => op.fresh = ∅ ∧ op.writes = {Proc.devRef (τ := τ) .tc y}) l W

/-- Such lines allocate nothing. -/
theorem Plain.fresh {l : List (HloOp τ sig (Elt Ideal))} {W : List (Ref sig .tc)} (h : Plain l W) :
    ∀ op ∈ l, op.fresh = ∅ := by
  induction h with
  | nil => intro op hop; cases hop
  | cons hab _ ih =>
    intro op hop
    rcases List.mem_cons.mp hop with rfl | hop
    · exact hab.1
    · exact ih op hop

/-- A buffer the list does not name is written by none of them. -/
theorem Plain.keeps {l : List (HloOp τ sig (Elt Ideal))} {W : List (Ref sig .tc)} (h : Plain l W)
    {r : Ref sig .tc} (hr : r ∉ W) : ∀ op ∈ l, Proc.devRef (τ := τ) .tc r ∉ op.writes := by
  induction h with
  | nil => intro op hop; cases hop
  | cons hab _ ih =>
    intro op hop
    rcases List.mem_cons.mp hop with rfl | hop
    · rw [hab.2, Finset.mem_singleton]
      exact StableHlo.devRef_ne_of_ne fun e => hr (e ▸ List.mem_cons_self)
    · exact ih (fun h' => hr (List.mem_cons_of_mem _ h')) op hop

/-- The result buffers of the 332 operations, in order. -/
abbrev written : List (Ref sig .tc) :=
  [ main_c, main_v0, main_v1, main_c_0, main_v2, main_v3, main_v4, main_v5, main_v6, main_v7, main_cst, main_v8,
    main_v9, main_c_1, main_v10, main_v11, main_c_2, main_v12, main_v13, main_v14, main_v15, main_v16, main_v17,
    main_cst_3, main_v18, main_v19, main_v20, main_call0_v0, main_call0_cst, main_call0_v1, main_call0_v2, main_v21,
    main_cst_4, main_v22, main_v23, main_v24, main_v25, main_v26, main_call1_v0, main_call1_cst, main_call1_v1,
    main_call1_v2, main_v27, main_cst_5, main_v28, main_v29, main_v30, main_v31, main_v32, main_call2_v0,
    main_call2_cst, main_call2_v1, main_call2_v2, main_v33, main_cst_6, main_v34, main_v35, main_v36, main_v37,
    main_v38, main_call3_v0, main_call3_cst, main_call3_v1, main_call3_v2, main_v39, main_cst_7, main_v40, main_v41,
    main_v42, main_v43, main_call4_v0, main_call4_cst, main_call4_v1, main_call4_v2, main_v44, main_cst_8, main_v45,
    main_v46, main_v47, main_v48, main_v49, main_v50, main_v51, main_v52, main_v53, main_cst_9, main_v54, main_v55,
    main_call5_cst, main_call5_v0, main_call5_cst_0, main_call5_v1, main_call5_v2, main_call5_v3, main_call5_v4,
    main_call5_v5, main_call5_v6, main_call5_cst_1, main_call5_v7, main_call5_v8, main_call5_v9, main_call5_v10,
    main_v56, main_cst_10, main_v57, main_v58, main_call6_cst, main_call6_v0, main_call6_cst_0, main_call6_v1,
    main_call6_v2, main_call6_v3, main_call6_v4, main_call6_v5, main_call6_v6, main_call6_cst_1, main_call6_v7,
    main_call6_v8, main_call6_v9, main_call6_v10, main_v59, main_v60, main_v61, main_cst_11, main_v62, main_v63,
    main_call7_cst, main_call7_v0, main_call7_cst_0, main_call7_v1, main_call7_v2, main_call7_v3, main_call7_v4,
    main_call7_v5, main_call7_v6, main_call7_cst_1, main_call7_v7, main_call7_v8, main_call7_v9, main_call7_v10,
    main_v64, main_v65, main_v66, main_cst_12, main_v67, main_v68, main_call8_cst, main_call8_v0, main_call8_cst_0,
    main_call8_v1, main_call8_v2, main_call8_v3, main_call8_v4, main_call8_v5, main_call8_v6, main_call8_cst_1,
    main_call8_v7, main_call8_v8, main_call8_v9, main_call8_v10, main_v69, main_cst_13, main_v70, main_v71, main_v72,
    main_cst_14, main_v73, main_v74, main_v75, main_v76, main_cst_15, main_v77, main_v78, main_v79, main_v80,
    main_cst_16, main_v81, main_v82, main_v83, main_v84, main_cst_17, main_v85, main_v86, main_v87, main_v88,
    main_cst_18, main_v89, main_v90, main_v91, main_v92, main_cst_19, main_v93, main_v94, main_v95, main_v96,
    main_cst_20, main_v97, main_v98, main_v99, main_v100, main_c_21, main_v101, main_v102, main_call9_v0,
    main_call9_v1, main_call9_v2, main_call9_v3, main_call9_v4, main_v103, main_c_22, main_v104, main_v105,
    main_v106, main_call10_v0, main_v107, main_cst_23, main_v108, main_v109, main_v110, main_cst_24, main_v111,
    main_v112, main_v113, main_v114, main_cst_25, main_v115, main_v116, main_v117, main_v118, main_cst_26, main_v119,
    main_v120, main_v121, main_v122, main_cst_27, main_v123, main_v124, main_v125, main_v126, main_cst_28, main_v127,
    main_v128, main_v129, main_v130, main_cst_29, main_v131, main_v132, main_v133, main_v134, main_cst_30, main_v135,
    main_v136, main_v137, main_v138, main_c_31, main_v139, main_v140, main_call11_v0, main_call11_v1, main_call11_v2,
    main_call11_v3, main_call11_v4, main_v141, main_c_32, main_v142, main_v143, main_v144, main_call12_v0, main_v145,
    main_c_33, main_v146, main_v147, main_c_34, main_v148, main_v149, main_v150, main_v151, main_v152, main_v153,
    main_cst_35, main_v154, main_v155, main_c_36, main_v156, main_v157, main_c_37, main_v158, main_v159, main_v160,
    main_v161, main_v162, main_v163, main_cst_38, main_v164, main_v165, main_v166, main_cst_39, main_v167, main_v168,
    main_cst_40, main_v169, main_cst_41, main_v170, main_v171, main_cst_42, main_v172, main_v173, main_cst_43,
    main_v174, main_cst_44, main_v175, main_v176, main_v177, main_cst_45, main_v178, main_v179, main_cst_46,
    main_v180, main_cst_47, main_v181, main_v182, main_cst_48, main_v183, main_v184, main_cst_49, main_v185,
    main_cst_50, main_v186, main_v187, main_v188, main_cst_51, main_v189 ]

set_option maxRecDepth 65536 in
set_option maxHeartbeats 4000000 in
/-- One operation after the other: it allocates nothing and its one written buffer is the list's next entry, both by
    unfolding the operation. -/
theorem ops_plain : Plain (ops (F := Ideal)) written := by
  repeat' first | exact List.Forall₂.nil | refine List.Forall₂.cons ⟨rfl, rfl⟩ ?_

/-- A buffer that is none of the 332 results holds after the operations what it held before. -/
theorem kept (B : Valuation τ sig (Elt Ideal)) (r : Ref sig .tc) (hr : r ∉ written) :
    StableHlo.after (ops (F := Ideal)) B (Proc.devRef .tc r) = B (Proc.devRef .tc r) :=
  StableHlo.after_of_forall_not_mem _ _ (ops_plain.keeps hr)

/-! ## The result -/

set_option maxRecDepth 65536 in
set_option maxHeartbeats 0 in
/-- From any buffer contents `B`, the result buffer after the 332 operations holds the loss of the six argument arrays
    in `B`.  Each operation's result is its function of its operands' results, back to the reads of the arguments; the
    loss is, by its definition, the same operations over the same reads. -/
theorem ref_term (B : Valuation τ sig (Elt Ideal)) :
    (StableHlo.after (ops (F := Ideal)) B (Proc.devRef .tc main_v189) : Cert.KernelIdeal.Around.Loss)
      = Cert.KernelIdeal.Around.lossOf (B (Proc.devRef .tc main_arg0)) (B (Proc.devRef .tc main_arg1)) (B (Proc.devRef .tc main_arg2)) (B (Proc.devRef .tc main_arg3)) (B (Proc.devRef .tc main_arg4)) (B (Proc.devRef .tc main_arg5)) := by
  after_results_simp
  exact rfl

/-! ## The run -/

/-- From any memory with zero counters, every weakly fair execution of the reference terminates without a fault, with
    its result at the loss of its arguments and its six argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v189)
          = Cert.KernelIdeal.Around.lossOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v189).trans (ref_term _),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide))⟩)
    (run_seq scopedRefs_eq scopedSems_eq defs main (fun _ => ops) main_eq (fun _ => ops_sub) m ρ (fun _ => ops_plain.fresh))

end Cert.ReferenceIdeal.RefValue

end
-- ==== Proof.lean ====
/-
  Prototype softmax with Sinkhorn targets and cross-entropy: a fused kernel against its plain reference, on the
  extended reals.

  Both programs mix the two input batches with a permutation, send four 4096-row batches through a linear backbone,
  divide each row by its Euclidean norm (bounded below by a small constant) and multiply by the transposed, normalised
  first 1000 prototypes; from the four arrays of logits they form four log-softmaxes, two Sinkhorn-normalised target
  arrays (overridden by one-hot rows where a label is given), their permutation mixtures, and the mean of four
  cross-entropies.  The kernel computes the four arrays of logits in ONE pass over the 16384 stacked rows, 1024 rows per
  grid point; the reference computes them one array at a time.

  • Each program runs to the end without a fault and leaves its six arguments as launched: for the two kernel programs
    this is the frame run around the one region (the host lines before it, the sixteen grid points, the host lines
    after it); for the reference it is its run read back.
  • The idealisation rewrote nothing, so the kernel's idealised program is its own text read on the extended reals.
  • The values agree: entry (R, q) of the kernel's logits is the row law of row R of the stack, row 4096 k + r of the stack
    is row r of the k-th batch, and the reference's logits of the k-th batch at (r, q) are the same sums; so the four
    quarters of the kernel's logits array ARE the reference's four logits arrays.  Everything after that is the same
    chain of host operations applied to equal arrays.  No step distributes a product over a sum or cancels, so the
    finiteness of the inputs is never used.
-/
import proofs.«127123_j21672404975748_1_alg».proof.Defs
import proofs.«127123_j21672404975748_1_alg».proof.Proof.Gen.Kernel
import proofs.«127123_j21672404975748_1_alg».proof.Proof.Gen.KernelIdeal
import proofs.«127123_j21672404975748_1_alg».proof.Proof.Gen.ReferenceIdeal
import proofs.«127123_j21672404975748_1_alg».proof.Proof.Gen.Pre_finite_inputs
import proofs.«127123_j21672404975748_1_alg».proof.Proof.KernelFrame
import proofs.«127123_j21672404975748_1_alg».proof.Proof.KernelIdealFrame
import proofs.«127123_j21672404975748_1_alg».proof.Proof.KernelIdealTail
import proofs.«127123_j21672404975748_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_kernel : Cert.frame_Kernel := fun m ρ _ => Cert.Kernel.Around.frame m ρ

/-- So does its idealised reading. -/
theorem frame_kernelIdeal : Cert.frame_KernelIdeal := fun m ρ _ => Cert.KernelIdeal.Around.frame m ρ

/-- The reference's run, its result forgotten. -/
theorem frame_reference : Cert.frame_ReferenceIdeal := fun m ρ _ =>
  (θ_run Cert.ReferenceIdeal.defs _ _).mono (fun _ h c => (h c).2) (Cert.ReferenceIdeal.RefValue.run m ρ)

/-- Nothing was rewritten. -/
theorem preserves : Cert.preserves_Kernel_KernelIdeal := trivial

/-- From memories agreeing on the arguments both idealised programs end with the same loss, ONE term of the arguments: the
    kernel's frame run gives its result as the later host lines applied to the final logits array, whose four quarters
    are the reference's four logits arrays; the reference's run gives the same term of its own arguments, which agree. -/
theorem algebraic : Cert.algebraic_KernelIdeal_ReferenceIdeal := by
  intro m ρ m' ρ' _ hagree
  refine ⟨fun c => Cert.KernelIdeal.Around.lossOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ?_) (Cert.KernelIdeal.Around.run_main m ρ)
    exact
      ⟨((h c).2 Cert.KernelIdeal.main_v170 (Pipeline.mem_restRefs_of Cert.KernelIdeal.main_v170 (by decide) (by decide))).trans
          (Cert.KernelIdeal.Around.kernel_value m c),
       ((h c).2 Cert.KernelIdeal.main_arg0 (Pipeline.mem_restRefs_of Cert.KernelIdeal.main_arg0 (by decide) (by decide))).trans (Cert.KernelIdeal.Around.W_main_arg0 m c),
       ((h c).2 Cert.KernelIdeal.main_arg1 (Pipeline.mem_restRefs_of Cert.KernelIdeal.main_arg1 (by decide) (by decide))).trans (Cert.KernelIdeal.Around.W_main_arg1 m c),
       ((h c).2 Cert.KernelIdeal.main_arg2 (Pipeline.mem_restRefs_of Cert.KernelIdeal.main_arg2 (by decide) (by decide))).trans (Cert.KernelIdeal.Around.W_main_arg2 m c),
       ((h c).2 Cert.KernelIdeal.main_arg3 (Pipeline.mem_restRefs_of Cert.KernelIdeal.main_arg3 (by decide) (by decide))).trans (Cert.KernelIdeal.Around.W_main_arg3 m c),
       ((h c).2 Cert.KernelIdeal.main_arg4 (Pipeline.mem_restRefs_of Cert.KernelIdeal.main_arg4 (by decide) (by decide))).trans (Cert.KernelIdeal.Around.W_main_arg4 m c),
       ((h c).2 Cert.KernelIdeal.main_arg5 (Pipeline.mem_restRefs_of Cert.KernelIdeal.main_arg5 (by decide) (by decide))).trans (Cert.KernelIdeal.Around.W_main_arg5 m c)⟩
  · refine (θ_run Cert.ReferenceIdeal.defs _ _).mono (fun _ h c => ?_) (Cert.ReferenceIdeal.RefValue.run m' ρ')
    obtain ⟨h0, h1, h2, h3, h4, h5⟩ := hagree c
    obtain ⟨r, r0, r1, r2, r3, r4, r5⟩ := h c
    refine ⟨?_, r0, r1, r2, r3, r4, r5⟩
    exact r.trans (by rw [h0, h1, h2, h3, h4, h5])

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
